-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8000000x3 : Shape := ⟨2, ![8000000, 3]⟩
abbrev S_ : Shape := ⟨0, ![]⟩

class Facts : Prop where
  bcast_S_S8000000x3 : S_.BroadcastsInDim S8000000x3 (![] : Fin 0 → Fin S8000000x3.rank)
  reducesTo_S8000000x3_S_d0_1 : S8000000x3.ReducesTo [0, 1] S_
  h_S_ : 0 < S_.numel

variable [Facts]

def fn {F : FTy → Type} [FloatOps F] (main_arg0 : FVec F S8000000x3 .f32) (main_arg1 : FVec F S8000000x3 .f32) : IVec S_ 1 :=
  let main_v0 : FVec F S8000000x3 .f32 := Host.absf main_arg0
  let main_cst : FVec F S_ .f32 := constant S_ .f32 0x7F800000#32
  let main_v1 : FVec F S8000000x3 .f32 := broadcastInDim S8000000x3 ![] bcast_S_S8000000x3 main_cst
  let main_v2 : IVec S8000000x3 1 := cmpf .olt main_v0 main_v1
  let main_c : IVec S_ 1 := constantI S_ 1 1#1
  let main_v3 : IVec S_ 1 := (fun x v => Host.reduce IntOp.andi x v reducesTo_S8000000x3_S_d0_1 h_S_) main_v2 main_c
  let main_v4 : FVec F S8000000x3 .f32 := Host.absf main_arg1
  let main_cst_0 : FVec F S_ .f32 := constant S_ .f32 0x7F800000#32
  let main_v5 : FVec F S8000000x3 .f32 := broadcastInDim S8000000x3 ![] bcast_S_S8000000x3 main_cst_0
  let main_v6 : IVec S8000000x3 1 := cmpf .olt main_v4 main_v5
  let main_c_1 : IVec S_ 1 := constantI S_ 1 1#1
  let main_v7 : IVec S_ 1 := (fun x v => Host.reduce IntOp.andi x v reducesTo_S8000000x3_S_d0_1 h_S_) main_v6 main_c_1
  let main_v8 : IVec S_ 1 := andi main_v3 main_v7
  main_v8
-- ==== Kernel.lean ====
abbrev S8000000x3 : Shape := ⟨2, ![8000000, 3]⟩
abbrev S7999488x3 : Shape := ⟨2, ![7999488, 3]⟩
abbrev S3x7999488 : Shape := ⟨2, ![3, 7999488]⟩
abbrev S3x62496x128 : Shape := ⟨3, ![3, 62496, 128]⟩
abbrev S2x1x1 : Shape := ⟨3, ![2, 1, 1]⟩
abbrev S3x1008x128 : Shape := ⟨3, ![3, 1008, 128]⟩
abbrev S1x1x1 : Shape := ⟨3, ![1, 1, 1]⟩
abbrev S1x1 : Shape := ⟨2, ![1, 1]⟩
abbrev S1x1008x128 : Shape := ⟨3, ![1, 1008, 128]⟩
abbrev S1008x128 : Shape := ⟨2, ![1008, 128]⟩
abbrev S1008 : Shape := ⟨1, ![1008]⟩
abbrev S1008x1 : Shape := ⟨2, ![1008, 1]⟩
abbrev S1 : Shape := ⟨1, ![1]⟩
abbrev S_ : Shape := ⟨0, ![]⟩
abbrev S512x3 : Shape := ⟨2, ![512, 3]⟩
abbrev S512x1 : Shape := ⟨2, ![512, 1]⟩
abbrev S512 : Shape := ⟨1, ![512]⟩

abbrev nBuf : Space → Nat
  | .hbm => 68
  | .vmem => 7
  | .smem => 0
  | _ => 0

abbrev bufTy : (tb : Table) → Fin (tcTables nBuf tb) → BufTy
  | .hbm, ⟨0, _⟩ => ⟨S8000000x3, .f32⟩
  | .hbm, ⟨1, _⟩ => ⟨S8000000x3, .f32⟩
  | .hbm, ⟨2, _⟩ => ⟨S7999488x3, .f32⟩
  | .hbm, ⟨3, _⟩ => ⟨S7999488x3, .f32⟩
  | .hbm, ⟨4, _⟩ => ⟨S3x7999488, .f32⟩
  | .hbm, ⟨5, _⟩ => ⟨S3x62496x128, .f32⟩
  | .hbm, ⟨6, _⟩ => ⟨S3x7999488, .f32⟩
  | .hbm, ⟨7, _⟩ => ⟨S3x62496x128, .f32⟩
  | .hbm, ⟨8, _⟩ => ⟨S2x1x1, .f32⟩
  | .hbm, ⟨9, _⟩ => ⟨S_, .f32⟩
  | .hbm, ⟨10, _⟩ => ⟨S_, .f32⟩
  | .hbm, ⟨11, _⟩ => ⟨S512x3, .f32⟩
  | .hbm, ⟨12, _⟩ => ⟨S512x3, .f32⟩
  | .hbm, ⟨13, _⟩ => ⟨S512x1, .f32⟩
  | .hbm, ⟨14, _⟩ => ⟨S512, .f32⟩
  | .hbm, ⟨15, _⟩ => ⟨S512x1, .f32⟩
  | .hbm, ⟨16, _⟩ => ⟨S512, .f32⟩
  | .hbm, ⟨17, _⟩ => ⟨S512x1, .f32⟩
  | .hbm, ⟨18, _⟩ => ⟨S512, .f32⟩
  | .hbm, ⟨19, _⟩ => ⟨S512x1, .f32⟩
  | .hbm, ⟨20, _⟩ => ⟨S512, .f32⟩
  | .hbm, ⟨21, _⟩ => ⟨S512x1, .f32⟩
  | .hbm, ⟨22, _⟩ => ⟨S512, .f32⟩
  | .hbm, ⟨23, _⟩ => ⟨S512x1, .f32⟩
  | .hbm, ⟨24, _⟩ => ⟨S512, .f32⟩
  | .hbm, ⟨25, _⟩ => ⟨S_, .f32⟩
  | .hbm, ⟨26, _⟩ => ⟨S512, .f32⟩
  | .hbm, ⟨27, _⟩ => ⟨S512, .f32⟩
  | .hbm, ⟨28, _⟩ => ⟨S512, .f32⟩
  | .hbm, ⟨29, _⟩ => ⟨S_, .f32⟩
  | .hbm, ⟨30, _⟩ => ⟨S512, .f32⟩
  | .hbm, ⟨31, _⟩ => ⟨S512, .f32⟩
  | .hbm, ⟨32, _⟩ => ⟨S512, .f32⟩
  | .hbm, ⟨33, _⟩ => ⟨S512, .f32⟩
  | .hbm, ⟨34, _⟩ => ⟨S512, .f32⟩
  | .hbm, ⟨35, _⟩ => ⟨S512, .f32⟩
  | .hbm, ⟨36, _⟩ => ⟨S512, .f32⟩
  | .hbm, ⟨37, _⟩ => ⟨S512, .f32⟩
  | .hbm, ⟨38, _⟩ => ⟨S512, .f32⟩
  | .hbm, ⟨39, _⟩ => ⟨S512, .f32⟩
  | .hbm, ⟨40, _⟩ => ⟨S_, .f32⟩
  | .hbm, ⟨41, _⟩ => ⟨S512, .f32⟩
  | .hbm, ⟨42, _⟩ => ⟨S512, .f32⟩
  | .hbm, ⟨43, _⟩ => ⟨S512, .f32⟩
  | .hbm, ⟨44, _⟩ => ⟨S512, .f32⟩
  | .hbm, ⟨45, _⟩ => ⟨S512, .f32⟩
  | .hbm, ⟨46, _⟩ => ⟨S512, .f32⟩
  | .hbm, ⟨47, _⟩ => ⟨S512, .f32⟩
  | .hbm, ⟨48, _⟩ => ⟨S512, .f32⟩
  | .hbm, ⟨49, _⟩ => ⟨S512, .f32⟩
  | .hbm, ⟨50, _⟩ => ⟨S_, .f32⟩
  | .hbm, ⟨51, _⟩ => ⟨S512, .f32⟩
  | .hbm, ⟨52, _⟩ => ⟨S512, .f32⟩
  | .hbm, ⟨53, _⟩ => ⟨S512, .f32⟩
  | .hbm, ⟨54, _⟩ => ⟨S512, .f32⟩
  | .hbm, ⟨55, _⟩ => ⟨S512, .f32⟩
  | .hbm, ⟨56, _⟩ => ⟨S_, .f32⟩
  | .hbm, ⟨57, _⟩ => ⟨S512, .f32⟩
  | .hbm, ⟨58, _⟩ => ⟨S512, .f32⟩
  | .hbm, ⟨59, _⟩ => ⟨S512, .f32⟩
  | .hbm, ⟨60, _⟩ => ⟨S_, .f32⟩
  | .hbm, ⟨61, _⟩ => ⟨S512, .f32⟩
  | .hbm, ⟨62, _⟩ => ⟨S512, .f32⟩
  | .hbm, ⟨63, _⟩ => ⟨S512, .f32⟩
  | .hbm, ⟨64, _⟩ => ⟨S512, .f32⟩
  | .hbm, ⟨65, _⟩ => ⟨S_, .f32⟩
  | .hbm, ⟨66, _⟩ => ⟨S_, .f32⟩
  | .hbm, ⟨67, _⟩ => ⟨S_, .f32⟩
  | .local _ .vmem, ⟨0, _⟩ => ⟨S3x1008x128, .f32⟩
  | .local _ .vmem, ⟨1, _⟩ => ⟨S3x1008x128, .f32⟩
  | .local _ .vmem, ⟨2, _⟩ => ⟨S3x1008x128, .f32⟩
  | .local _ .vmem, ⟨3, _⟩ => ⟨S3x1008x128, .f32⟩
  | .local _ .vmem, ⟨4, _⟩ => ⟨S1x1x1, .f32⟩
  | .local _ .vmem, ⟨5, _⟩ => ⟨S1x1x1, .f32⟩
  | .local _ .vmem, ⟨6, _⟩ => ⟨S1x1, .f32⟩
  | _, _ => ⟨S8000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst_0 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_1 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_cst_2 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_cst_3 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_cst_4 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_cst_5 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_cst_6 : Ref sig .tc := ⟨.hbm, 65, rfl⟩
abbrev main_v56 : Ref sig .tc := ⟨.hbm, 66, rfl⟩
abbrev main_v57 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 31], ![false, false]⟩

def k0_cond2 (i : grid0.Coords) : BitVec 1 :=
  let arg1 : BitVec 32 := BitVec.ofNat 32 (i 1).val
  let c30_i32 : BitVec 32 := 30#32
  let v59 : BitVec 1 := Scalar.cmpi .eq arg1 c30_i32
  let v60 : BitVec 32 := Scalar.extui v59
  let c0_i32_28 : BitVec 32 := 0#32
  let v61 : BitVec 1 := Scalar.cmpi .ne v60 c0_i32_28
  v61

def cc0_transform_0 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.muli arg0 c31_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.muli arg0 c31_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S3x1008x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x1008x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  slices_S8000000x3_S7999488x3_0_0 : S8000000x3.Slices ![0, 0] S7999488x3
  transposes_S7999488x3_S3x7999488_1_0 : S7999488x3.Transposes [1, 0] S3x7999488
  shapeCasts_S3x7999488_S3x62496x128 : S3x7999488.ShapeCasts S3x62496x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S3x1008x128_S1x1008x128_0_0_0 : ∀ a, (![0, 0, 0] : Fin 3 → Nat) a + S1x1008x128.size a ≤ S3x1008x128.size a
  h_S1x1008x128 : 0 < S1x1008x128.numel
  shapeCasts_S1x1008x128_S1008x128 : S1x1008x128.ShapeCasts S1008x128
  inb_S3x1008x128_S1x1008x128_1_0_0 : ∀ a, (![1, 0, 0] : Fin 3 → Nat) a + S1x1008x128.size a ≤ S3x1008x128.size a
  inb_S3x1008x128_S1x1008x128_2_0_0 : ∀ a, (![2, 0, 0] : Fin 3 → Nat) a + S1x1008x128.size a ≤ S3x1008x128.size a
  reduces_S1008x128_S1008 : S1008x128.Reduces [1] S1008
  shapeCasts_S1008_S1008x1 : S1008.ShapeCasts S1008x1
  reduces_S1008x1_S1 : S1008x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S2x1x1_S_d0_1_2 : S2x1x1.ReducesTo [0, 1, 2] S_
  h_S_ : 0 < S_.numel
  slices_S8000000x3_S512x3_7999488_0 : S8000000x3.Slices ![7999488, 0] S512x3
  slices_S512x3_S512x1_0_0 : S512x3.Slices ![0, 0] S512x1
  shapeCasts_S512x1_S512 : S512x1.ShapeCasts S512
  slices_S512x3_S512x1_0_1 : S512x3.Slices ![0, 1] S512x1
  slices_S512x3_S512x1_0_2 : S512x3.Slices ![0, 2] S512x1
  bcast_S_S512 : S_.BroadcastsInDim S512 (![] : Fin 0 → Fin S512.rank)
  reducesTo_S512_S_d0 : S512.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x1008x128.size a ≤ S3x62496x128.size a
  hwx0_0 : ∀ i : grid0.Coords, EltTy.bits .f32 = 32 ∨ (Rect.block (s := S3x62496x128) S3x1008x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x1008x128.size a ≤ S3x62496x128.size a
  hwx0_1 : ∀ i : grid0.Coords, EltTy.bits .f32 = 32 ∨ (Rect.block (s := S3x62496x128) S3x1008x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_v3) S3x1008x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S3x1008x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8000000x3 : Shape := ⟨2, ![8000000, 3]⟩
abbrev S8000000x1 : Shape := ⟨2, ![8000000, 1]⟩
abbrev S8000000 : Shape := ⟨1, ![8000000]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S8000000x3, .f32⟩
  | .hbm, ⟨1, _⟩ => ⟨S8000000x3, .f32⟩
  | .hbm, ⟨2, _⟩ => ⟨S8000000x1, .f32⟩
  | .hbm, ⟨3, _⟩ => ⟨S8000000, .f32⟩
  | .hbm, ⟨4, _⟩ => ⟨S8000000x1, .f32⟩
  | .hbm, ⟨5, _⟩ => ⟨S8000000, .f32⟩
  | .hbm, ⟨6, _⟩ => ⟨S8000000x1, .f32⟩
  | .hbm, ⟨7, _⟩ => ⟨S8000000, .f32⟩
  | .hbm, ⟨8, _⟩ => ⟨S8000000x1, .f32⟩
  | .hbm, ⟨9, _⟩ => ⟨S8000000, .f32⟩
  | .hbm, ⟨10, _⟩ => ⟨S8000000x1, .f32⟩
  | .hbm, ⟨11, _⟩ => ⟨S8000000, .f32⟩
  | .hbm, ⟨12, _⟩ => ⟨S8000000x1, .f32⟩
  | .hbm, ⟨13, _⟩ => ⟨S8000000, .f32⟩
  | .hbm, ⟨14, _⟩ => ⟨S_, .f32⟩
  | .hbm, ⟨15, _⟩ => ⟨S8000000, .f32⟩
  | .hbm, ⟨16, _⟩ => ⟨S8000000, .f32⟩
  | .hbm, ⟨17, _⟩ => ⟨S8000000, .f32⟩
  | .hbm, ⟨18, _⟩ => ⟨S_, .f32⟩
  | .hbm, ⟨19, _⟩ => ⟨S8000000, .f32⟩
  | .hbm, ⟨20, _⟩ => ⟨S8000000, .f32⟩
  | .hbm, ⟨21, _⟩ => ⟨S8000000, .f32⟩
  | .hbm, ⟨22, _⟩ => ⟨S8000000, .f32⟩
  | .hbm, ⟨23, _⟩ => ⟨S8000000, .f32⟩
  | .hbm, ⟨24, _⟩ => ⟨S8000000, .f32⟩
  | .hbm, ⟨25, _⟩ => ⟨S8000000, .f32⟩
  | .hbm, ⟨26, _⟩ => ⟨S8000000, .f32⟩
  | .hbm, ⟨27, _⟩ => ⟨S8000000, .f32⟩
  | .hbm, ⟨28, _⟩ => ⟨S8000000, .f32⟩
  | .hbm, ⟨29, _⟩ => ⟨S_, .f32⟩
  | .hbm, ⟨30, _⟩ => ⟨S8000000, .f32⟩
  | .hbm, ⟨31, _⟩ => ⟨S8000000, .f32⟩
  | .hbm, ⟨32, _⟩ => ⟨S8000000, .f32⟩
  | .hbm, ⟨33, _⟩ => ⟨S8000000, .f32⟩
  | .hbm, ⟨34, _⟩ => ⟨S8000000, .f32⟩
  | .hbm, ⟨35, _⟩ => ⟨S8000000, .f32⟩
  | .hbm, ⟨36, _⟩ => ⟨S8000000, .f32⟩
  | .hbm, ⟨37, _⟩ => ⟨S8000000, .f32⟩
  | .hbm, ⟨38, _⟩ => ⟨S8000000, .f32⟩
  | .hbm, ⟨39, _⟩ => ⟨S_, .f32⟩
  | .hbm, ⟨40, _⟩ => ⟨S8000000, .f32⟩
  | .hbm, ⟨41, _⟩ => ⟨S8000000, .f32⟩
  | .hbm, ⟨42, _⟩ => ⟨S8000000, .f32⟩
  | .hbm, ⟨43, _⟩ => ⟨S8000000, .f32⟩
  | .hbm, ⟨44, _⟩ => ⟨S8000000, .f32⟩
  | .hbm, ⟨45, _⟩ => ⟨S_, .f32⟩
  | .hbm, ⟨46, _⟩ => ⟨S8000000, .f32⟩
  | .hbm, ⟨47, _⟩ => ⟨S8000000, .f32⟩
  | .hbm, ⟨48, _⟩ => ⟨S8000000, .f32⟩
  | .hbm, ⟨49, _⟩ => ⟨S_, .f32⟩
  | .hbm, ⟨50, _⟩ => ⟨S8000000, .f32⟩
  | .hbm, ⟨51, _⟩ => ⟨S8000000, .f32⟩
  | .hbm, ⟨52, _⟩ => ⟨S8000000, .f32⟩
  | .hbm, ⟨53, _⟩ => ⟨S_, .f32⟩
  | .hbm, ⟨54, _⟩ => ⟨S_, .f32⟩
  | .hbm, ⟨55, _⟩ => ⟨S_, .f32⟩
  | _, _ => ⟨S8000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_1 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_cst_2 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_cst_3 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_cst_4 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_5 : Ref sig .tc := ⟨.hbm, 53, rfl⟩
abbrev main_v45 : Ref sig .tc := ⟨.hbm, 54, rfl⟩
abbrev main_v46 : Ref sig .tc := ⟨.hbm, 55, rfl⟩

abbrev nD : Nat := 1
abbrev τ : Topo := Topo.v7x

variable {F : FTy → Type} [FloatOps F]

class Facts₀ : Prop where
  slices_S8000000x3_S8000000x1_0_0 : S8000000x3.Slices ![0, 0] S8000000x1
  shapeCasts_S8000000x1_S8000000 : S8000000x1.ShapeCasts S8000000
  slices_S8000000x3_S8000000x1_0_1 : S8000000x3.Slices ![0, 1] S8000000x1
  slices_S8000000x3_S8000000x1_0_2 : S8000000x3.Slices ![0, 2] S8000000x1
  bcast_S_S8000000 : S_.BroadcastsInDim S8000000 (![] : Fin 0 → Fin S8000000.rank)
  reducesTo_S8000000_S_d0 : S8000000.ReducesTo [0] S_
  h_S_ : 0 < S_.numel

variable [Facts₀]

class Facts : Prop extends Facts₀ where

variable [Facts]
-- ==== Proof.LossTerm.lean ====
/-
  The quantity both programs compute, as one function of the two argument arrays over the extended reals.

  Row `n` of `outputs` and of `targets` is a box `(x, y, s)`: the square `[x - s, x + s] × [y - s, y + s]`.  With
  `w = max (min (ox + os) (tx + ts) - max (ox - os) (tx - ts)) 0` and `h` the same in `y`, the overlap is `w · h`, the union
  `(2·os)² + (2·ts)² - w · h`, and the row's term is `log (w·h / (union + ε) + ε)`.  The loss is `-(0 + ∑ₙ term n)` over the
  8,000,000 rows.  The float literals are kept as the patterns the programs spell (`2.0`, `1e-7` rounded to f32, `+0.0`).
-/
import Idealize.ShloMosaic.PureOps.Ideal
import Idealize.ShloMosaic.Lib.ValueIdx

noncomputable section

namespace Cert.IouLoss

open Idealize.ShloMosaic Idealize.ShloMosaic.ValueIdx

/-- The literal `2.0`. -/
abbrev two : EReal := Ideal.ofBits .f32 0x40000000#32
/-- The literal `1e-7` as f32. -/
abbrev eps : EReal := Ideal.ofBits .f32 0x33D6BF95#32
/-- The literal `+0.0`. -/
abbrev zero : EReal := Ideal.ofBits .f32 0x00000000#32

/-- The overlap area of the two boxes: the clamped overlap widths in `x` and in `y`, multiplied. -/
def overlap (ox oy os tx ty ts : EReal) : EReal :=
  max (min (ox + os) (tx + ts) - max (ox - os) (tx - ts)) zero
    * max (min (oy + os) (ty + ts) - max (oy - os) (ty - ts)) zero

/-- The argument of the logarithm: intersection over union, both regularised by `ε`. -/
def logArg (ox oy os tx ty ts : EReal) : EReal :=
  Ideal.div (overlap ox oy os tx ty ts)
      (two * os * (two * os) + two * ts * (two * ts) - overlap ox oy os tx ty ts + eps)
    + eps

/-- One row's term: the logarithm of its regularised intersection over union. -/
def term (ox oy os tx ty ts : EReal) : EReal := Ideal.log (logArg ox oy os tx ty ts)

/-- Row `n`'s term, of the two `[8000000, 3]` arrays. -/
def rowTerm (o t : (⟨2, ![8000000, 3]⟩ : Shape).Idx → EReal) (n : Fin 8000000) : EReal :=
  term (o (ix2 n 0)) (o (ix2 n 1)) (o (ix2 n 2)) (t (ix2 n 0)) (t (ix2 n 1)) (t (ix2 n 2))

/-- The row the kernel's grid point `(c, j)` reads at sublane `r`, lane `l` of its block: the 62 blocks of 1008 × 128 rows
    tile the first 7,999,488 rows in order. -/
def mainRow (c : Fin 2) (j : Fin 31) (r : Fin 1008) (l : Fin 128) : Fin 8000000 :=
  ⟨((c.val * 31 + j.val) * 1008 + r.val) * 128 + l.val, by omega⟩

/-- The last 512 rows, which the kernel's wrapper sums outside the grid. -/
def tailRow (k : Fin 512) : Fin 8000000 := ⟨7999488 + k.val, by omega⟩

/-- The loss: minus the sum of every row's term (the sum started at the literal zero, as both programs start it). -/
def loss (o t : (⟨2, ![8000000, 3]⟩ : Shape).Idx → EReal) : EReal :=
  -(zero + ∑ n : Fin 8000000, rowTerm o t n)

end Cert.IouLoss

end
-- ==== Proof.RefLoss.lean ====
/-
  The reference program computes the loss of LossTerm.lean.

  Its result is a rank-0 array whose one element is minus the sum, started at the literal zero, over the 8,000,000 rows, of
  the logarithm of the regularised intersection over union of the row's two boxes.  The proof reads the program one operation at
  a time at an index: the three column slices of each argument followed by the reshape to a vector read row `n` of the
  argument at columns 0, 1, 2; every other operation is elementwise; the sum over the rank-1 index set is the sum over its one
  coordinate.  No literal is evaluated: both sides spell the same three bit patterns in the same places.
-/
import proofs.«141015_j9096740733450_2_alg».proof.Proof.Gen.ReferenceIdeal.Read
import proofs.«141015_j9096740733450_2_alg».proof.Proof.LossTerm

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Where the slices read: row `n`, columns 0, 1, 2 -/

theorem idx_o0 (n : Fin 8000000) : idx_main_v0 (idx_main_v1 (ix1 n)) = ix2 n 0 :=
  funext fun a => Fin.ext (by match a with | ⟨0, _⟩ => exact Nat.div_one _ | ⟨1, _⟩ => rfl)
theorem idx_o1 (n : Fin 8000000) : idx_main_v2 (idx_main_v3 (ix1 n)) = ix2 n 1 :=
  funext fun a => Fin.ext (by match a with | ⟨0, _⟩ => exact Nat.div_one _ | ⟨1, _⟩ => rfl)
theorem idx_o2 (n : Fin 8000000) : idx_main_v4 (idx_main_v5 (ix1 n)) = ix2 n 2 :=
  funext fun a => Fin.ext (by match a with | ⟨0, _⟩ => exact Nat.div_one _ | ⟨1, _⟩ => rfl)
theorem idx_t0 (n : Fin 8000000) : idx_main_v6 (idx_main_v7 (ix1 n)) = ix2 n 0 :=
  funext fun a => Fin.ext (by match a with | ⟨0, _⟩ => exact Nat.div_one _ | ⟨1, _⟩ => rfl)
theorem idx_t1 (n : Fin 8000000) : idx_main_v8 (idx_main_v9 (ix1 n)) = ix2 n 1 :=
  funext fun a => Fin.ext (by match a with | ⟨0, _⟩ => exact Nat.div_one _ | ⟨1, _⟩ => rfl)
theorem idx_t2 (n : Fin 8000000) : idx_main_v10 (idx_main_v11 (ix1 n)) = ix2 n 2 :=
  funext fun a => Fin.ext (by match a with | ⟨0, _⟩ => exact Nat.div_one _ | ⟨1, _⟩ => rfl)

/-! ## One row -/

/-- The operand of the sum at row `n` is the row's term. -/
theorem row_eq (o t : (⟨S8000000x3, .f32⟩ : BufTy).Contents (Elt Ideal)) (n : Fin 8000000) :
    val_main_v44 (F := Ideal) o t (ix1 n) = Cert.IouLoss.rowTerm o t n := by
  simp only [val_main_v44_apply, val_main_v43_apply, val_main_v42_apply, val_main_cst_4_apply, val_main_v41_apply,
    val_main_v40_apply, val_main_v39_apply, val_main_cst_3_apply, val_main_v38_apply, val_main_v37_apply,
    val_main_v36_apply, val_main_v35_apply, val_main_v34_apply, val_main_cst_2_apply, val_main_v33_apply,
    val_main_v32_apply, val_main_v31_apply, val_main_v30_apply, val_main_v29_apply, val_main_v28_apply,
    val_main_v27_apply, val_main_v26_apply, val_main_v25_apply, val_main_cst_1_apply, val_main_v24_apply,
    val_main_v23_apply, val_main_v22_apply, val_main_v21_apply, val_main_v20_apply, val_main_v19_apply,
    val_main_v18_apply, val_main_v17_apply, val_main_v16_apply, val_main_v15_apply, val_main_cst_0_apply,
    val_main_v14_apply, val_main_v13_apply, val_main_v12_apply, val_main_cst_apply,
    val_main_v11_apply, val_main_v10_apply, val_main_v9_apply, val_main_v8_apply, val_main_v7_apply, val_main_v6_apply,
    val_main_v5_apply, val_main_v4_apply, val_main_v3_apply, val_main_v2_apply, val_main_v1_apply, val_main_v0_apply,
    idx_o0, idx_o1, idx_o2, idx_t0, idx_t1, idx_t2,
    Ideal.ofBits_def, Ideal.addf_def, Ideal.subf_def, Ideal.mulf_def, Ideal.maximumf_def, Ideal.minimumf_def,
    Ideal.hostDivf_def, Ideal.hostUnary_log_def]
  rfl

/-! ## The result -/

/-- The reference's result, at its one index, is the loss of its two arguments. -/
theorem res_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_out0 (F := Ideal) m c
      = fun _ => Cert.IouLoss.loss (m ((c.tc : Thread _ Cert.ReferenceIdeal.τ).loc Cert.ReferenceIdeal.main_arg0))
          (m ((c.tc : Thread _ Cert.ReferenceIdeal.τ).loc Cert.ReferenceIdeal.main_arg1)) := by
  funext i
  show Cert.ReferenceIdeal.Value.res_main_v46 m c i = _
  rw [val_main_v46_eq, val_main_v46_apply, val_main_v45_apply, sum_idx1]
  simp only [row_eq, val_main_cst_5_apply, Ideal.ofBits_def, Ideal.hostNegf_def, Ideal.negf_def]
  rfl

/-! ## The run, in the form the certificate cites -/

/-- Every weakly fair execution of the reference terminates with its result buffer holding the loss of the two arguments
    at its one index, the arguments unchanged. -/
theorem run_loss (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal)))
      ⟨m, fun _ => 0, ρ⟩ fun r => ∀ c : Dev Cert.ReferenceIdeal.nD,
        r.2.mem ((c.tc : Thread Cert.ReferenceIdeal.nD Cert.ReferenceIdeal.τ).loc main_v46)
            = (fun _ => Cert.IouLoss.loss (m ((c.tc : Thread Cert.ReferenceIdeal.nD Cert.ReferenceIdeal.τ).loc main_arg0))
                (m ((c.tc : Thread Cert.ReferenceIdeal.nD Cert.ReferenceIdeal.τ).loc main_arg1)))
        ∧ r.2.mem ((c.tc : Thread Cert.ReferenceIdeal.nD Cert.ReferenceIdeal.τ).loc main_arg0)
            = m ((c.tc : Thread Cert.ReferenceIdeal.nD Cert.ReferenceIdeal.τ).loc main_arg0)
        ∧ r.2.mem ((c.tc : Thread Cert.ReferenceIdeal.nD Cert.ReferenceIdeal.τ).loc main_arg1)
            = m ((c.tc : Thread Cert.ReferenceIdeal.nD Cert.ReferenceIdeal.τ).loc main_arg1) :=
  (θ_run _ _ _).mono (fun _ h c => ⟨(h c).1.trans (res_eq m c), (h c).2⟩) (Cert.ReferenceIdeal.Value.run (F := Ideal) m ρ)

end Cert.ReferenceIdeal.RefValue

end
-- ==== Proof.FiniteInputs.lean ====
/-
  The inputs are finite.

  The precondition says `|a| < +∞` at every element of the first array and `|b| < +∞` at every element of the second
  (each a conjunction over all elements, and the two conjoined).  Over the extended reals `|x| = max x (-x)`, and
  `max x (-x) < ⊤` excludes both `x = ⊤` and `x = ⊥`: so every element is a real number.
-/
import proofs.«141015_j9096740733450_2_alg».proof.Pre_finite_inputs
import Idealize.ShloMosaic.PureOps.Ideal
import Idealize.ShloMosaic.Lib.ReduceAll

noncomputable section

namespace Cert.IouLoss

open Idealize.ShloMosaic

/-- The bit pattern `0x7F800000` is `+∞`. -/
theorem inf_bits : Ideal.ofBits .f32 0x7F800000#32 = (⊤ : EReal) := by
  simp [Ideal.ofBits, Ideal.ieee]

/-- An extended real whose absolute value `max x (-x)` is below `⊤` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The comparison `|x| < +∞`, as the precondition spells it on one element, makes the element a real number. -/
theorem real_of_cmp (x : EReal)
    (h : Ideal.cmp .olt (max x (-x)) (Ideal.ofBits .f32 0x7F800000#32) = 1#1) : ∃ r : ℝ, x = (r : EReal) := by
  rw [inf_bits] at h
  refine real_of_abs_lt_top x ?_
  by_contra hn
  simp [Ideal.cmp, hn] at h

/-- The result of a reduction over every axis has exactly one index. -/
instance : Subsingleton Cert.Pre_finite_inputs.S_.Idx := ⟨fun a b => funext fun d => d.elim0⟩

/-- From the precondition: every element of both arrays is a real number. -/
theorem finite_of_pre [Cert.Pre_finite_inputs.Facts] (a b : FVec Ideal Cert.Pre_finite_inputs.S8000000x3 .f32)
    (h : Cert.Pre_finite_inputs.fn (F := Ideal) a b = fun _ => 1#1) :
    (∀ i, ∃ r : ℝ, a i = (r : EReal)) ∧ (∀ i, ∃ r : ℝ, b i = (r : EReal)) := by
  -- the precondition's one word, spelled out: the conjunction of the two reductions
  have h0 := congrFun h (fun d => d.elim0)
  unfold Cert.Pre_finite_inputs.fn at h0
  dsimp only at h0
  obtain ⟨ha, hb⟩ := IntOp.andi_eq_one.1 h0
  -- a conjunction over all elements that holds, holds at each element
  exact ⟨fun i => real_of_cmp (a i) (Host.reduce_andi_all _ _ _ _ _ ha i),
    fun i => real_of_cmp (b i) (Host.reduce_andi_all _ _ _ _ _ hb i)⟩

end Cert.IouLoss

end
-- ==== Proof.HostTail.lean ====
/-
  The kernel program's host operations after the grid.

  They add two numbers.  The first is the sum, started at the literal zero, of the two cells of the grid's `[2, 1, 1]` result.
  The second treats the last 512 rows of the two arguments — rows `7999488 + k` — as the reference treats every row: the three
  columns are sliced out and flattened, the elementwise chain forms each row's term, the term is negated, and the 512 negated
  terms are summed from the literal zero.  Read at its one index the result is
  `(0 + ∑ q, cell q) + (0 + ∑ k, -(term of row 7999488 + k))`, with the same three bit patterns the loss spells.
-/
import proofs.«141015_j9096740733450_2_alg».proof.Proof.Gen.KernelIdeal.Frame
import proofs.«141015_j9096740733450_2_alg».proof.Proof.LossTerm
import Idealize.ShloMosaic.Lib.Pipeline.Value
import Idealize.ShloMosaic.Lib.ValueIdx
import Idealize.ShloMosaic.Lib.ValueLayout
import Idealize.ShloMosaic.Lib.IdealHost
import Idealize.ShloMosaic.Lib.StableHlo.Run
import Idealize.ShloMosaic.PureOps.Ideal.Laws

noncomputable section

open scoped BigOperators

namespace Cert.KernelIdeal.Tail

open Cert.KernelIdeal Cert.KernelIdeal.Gen Idealize.ShloMosaic Idealize.ShloMosaic.TcCoe Idealize.SL.Sem
  Idealize.ShloMosaic.ValueIdx

/-! ## The tail's stages, as functions of the grid's result and the two arguments -/

/-- A vector of 512 extended reals. -/
abbrev V512 : Type := FVec Ideal S512 .f32
/-- An argument array. -/
abbrev Arg : Type := FVec Ideal S8000000x3 .f32

/-- The last 512 rows of an argument. -/
def lastRows (x : Arg) : FVec Ideal S512x3 .f32 :=
  extractStridedSlice S512x3 ![7999488, 0] x slices_S8000000x3_S512x3_7999488_0
/-- Their first column, flattened. -/
def col0 (x : Arg) : V512 :=
  shapeCast S512 (extractStridedSlice S512x1 ![0, 0] (lastRows x) slices_S512x3_S512x1_0_0) shapeCasts_S512x1_S512
/-- Their second column, flattened. -/
def col1 (x : Arg) : V512 :=
  shapeCast S512 (extractStridedSlice S512x1 ![0, 1] (lastRows x) slices_S512x3_S512x1_0_1) shapeCasts_S512x1_S512
/-- Their third column, flattened. -/
def col2 (x : Arg) : V512 :=
  shapeCast S512 (extractStridedSlice S512x1 ![0, 2] (lastRows x) slices_S512x3_S512x1_0_2) shapeCasts_S512x1_S512

/-- The literal `2.0` at every row. -/
def twoV : V512 := broadcastInDim S512 ![] bcast_S_S512 (constant (F := Ideal) S_ .f32 0x40000000#32)
/-- The literal `+0.0` at every row. -/
def zeroV : V512 := broadcastInDim S512 ![] bcast_S_S512 (constant (F := Ideal) S_ .f32 0x00000000#32)
/-- The literal `1e-7` at every row. -/
def epsV : V512 := broadcastInDim S512 ![] bcast_S_S512 (constant (F := Ideal) S_ .f32 0x33D6BF95#32)

/-- The clamped overlap width in one coordinate, row by row. -/
def widthV (a s a' s' : V512) : V512 :=
  maximumf (subf (minimumf (addf a s) (addf a' s')) (maximumf (subf a s) (subf a' s'))) zeroV
/-- The overlap area, row by row. -/
def overlapV (ox oy os tx ty ts : V512) : V512 := mulf (widthV ox os tx ts) (widthV oy os ty ts)
/-- A box's area `(2·s)²`, row by row. -/
def areaV (s : V512) : V512 := mulf (mulf twoV s) (mulf twoV s)
/-- Minus the row's term, row by row. -/
def negTermV (ox oy os tx ty ts : V512) : V512 :=
  Host.negf (Host.log (addf (Host.divf (overlapV ox oy os tx ty ts)
    (addf (subf (addf (areaV os) (areaV ts)) (overlapV ox oy os tx ty ts)) epsV)) epsV))

/-- The tail's result, of the grid's result `a` and the two arguments. -/
def tail (a : FVec Ideal S2x1x1 .f32) (x0 x1 : Arg) : FVec Ideal S_ .f32 :=
  addf (Host.reduceAdd a (constant (F := Ideal) S_ .f32 0x00000000#32) reducesTo_S2x1x1_S_d0_1_2 h_S_)
    (Host.reduceAdd (negTermV (col0 x0) (col1 x0) (col2 x0) (col0 x1) (col1 x1) (col2 x1))
      (constant (F := Ideal) S_ .f32 0x00000000#32) reducesTo_S512_S_d0 h_S_)

/-! ## Sums over the small index sets -/

/-- The `[2, 1, 1]` index set is its first coordinate's range … -/
def cellsEquiv : S2x1x1.Idx ≃ Fin 2 where
  toFun j := j 0
  invFun q := ix3 q 0 0
  left_inv j := by
    funext a
    match a with
    | ⟨0, _⟩ => rfl
    | ⟨1, _⟩ => exact Fin.ext (by have h : (j 1).val < 1 := (j 1).isLt; show 0 = (j 1).val; omega)
    | ⟨2, _⟩ => exact Fin.ext (by have h : (j 2).val < 1 := (j 2).isLt; show 0 = (j 2).val; omega)
  right_inv _ := rfl
/-- … so a sum over it is the sum of the two cells. -/
theorem sum_cells {M : Type*} [AddCommMonoid M] (f : S2x1x1.Idx → M) : ∑ j, f j = ∑ q : Fin 2, f (ix3 q 0 0) := by
  rw [← Equiv.sum_comp cellsEquiv.symm f]
  rfl

/-- The `[512]` index set is its coordinate's range … -/
def rowsEquiv : S512.Idx ≃ Fin 512 where
  toFun j := j 0
  invFun k := ix1 k
  left_inv j := (eq_ix1 j).symm
  right_inv _ := rfl
/-- … so a sum over it is the sum over the 512 rows. -/
theorem sum_rows {M : Type*} [AddCommMonoid M] (f : S512.Idx → M) : ∑ j, f j = ∑ k : Fin 512, f (ix1 k) := by
  rw [← Equiv.sum_comp rowsEquiv.symm f]
  rfl

/-! ## The stages read at a row -/

/-- Column `j` of the last 512 rows, flattened, reads at `k` the argument at row `7999488 + k`, column `j`. -/
theorem col_apply {α : Type} (x : S8000000x3.Idx → α) (j : Fin 3) (off : Fin 2 → Nat) (hoff : off = ![0, j.val])
    (hs : S512x3.Slices off S512x1) (k : Fin 512) :
    shapeCast S512 (extractStridedSlice S512x1 off
        (extractStridedSlice S512x3 ![7999488, 0] x slices_S8000000x3_S512x3_7999488_0) hs) shapeCasts_S512x1_S512 (ix1 k)
      = x (ix2 (Cert.IouLoss.tailRow k) j) := by
  subst hoff
  refine (shapeCast_apply _ shapeCasts_S512x1_S512 (ix1 k) (ix2 k 0) ?_).trans ?_
  · rw [Shape.rowMajor_val_two, Shape.rowMajor_val_one]
    show k.val * 1 + 0 = k.val
    omega
  refine (extractStridedSlice_apply ![0, j.val] _ hs (ix2 k 0) (ix2 k j) ?_).trans ?_
  · intro a
    match a with
    | ⟨0, _⟩ => show k.val = 0 + k.val; omega
    | ⟨1, _⟩ => show j.val = j.val + 0; omega
  exact extractStridedSlice_apply ![7999488, 0] x slices_S8000000x3_S512x3_7999488_0 (ix2 k j)
    (ix2 (Cert.IouLoss.tailRow k) j) (fun a => match a with
      | ⟨0, _⟩ => by show 7999488 + k.val = 7999488 + k.val; rfl
      | ⟨1, _⟩ => by show j.val = 0 + j.val; omega)

theorem col0_apply (x : Arg) (k : Fin 512) : col0 x (ix1 k) = x (ix2 (Cert.IouLoss.tailRow k) 0) :=
  col_apply x 0 ![0, 0] rfl slices_S512x3_S512x1_0_0 k
theorem col1_apply (x : Arg) (k : Fin 512) : col1 x (ix1 k) = x (ix2 (Cert.IouLoss.tailRow k) 1) :=
  col_apply x 1 ![0, 1] rfl slices_S512x3_S512x1_0_1 k
theorem col2_apply (x : Arg) (k : Fin 512) : col2 x (ix1 k) = x (ix2 (Cert.IouLoss.tailRow k) 2) :=
  col_apply x 2 ![0, 2] rfl slices_S512x3_S512x1_0_2 k

/-- Minus the term, row by row, reads at a row minus the term of the six vectors' entries there: every operation is
    elementwise and the three constants read their literal everywhere. -/
theorem negTermV_apply (ox oy os tx ty ts : V512) (i : S512.Idx) :
    negTermV ox oy os tx ty ts i = -(Cert.IouLoss.term (ox i) (oy i) (os i) (tx i) (ty i) (ts i)) := rfl

/-! ## The tail read at its one index -/

/-- The tail's result is the sum of the two cells plus the sum of the 512 last rows' negated terms, each sum from the
    literal zero. -/
theorem tail_read (a : FVec Ideal S2x1x1 .f32) (x0 x1 : Arg) :
    tail a x0 x1 = fun _ => (Cert.IouLoss.zero + ∑ q : Fin 2, a (ix3 q 0 0))
      + (Cert.IouLoss.zero + ∑ k : Fin 512, -(Cert.IouLoss.rowTerm x0 x1 (Cert.IouLoss.tailRow k))) := by
  funext i
  unfold tail
  rw [addf_apply, hostReduceAdd_apply, hostReduceAdd_apply,
    Ideal.hostReduceAdd_total reducesTo_S2x1x1_S_d0_1_2 (fun b => b.elim0),
    Ideal.hostReduceAdd_total reducesTo_S512_S_d0 (fun b => b.elim0), sum_cells, sum_rows]
  simp only [negTermV_apply, col0_apply, col1_apply, col2_apply, constant_apply]
  rfl

variable (m : (ℓ : Loc nD τ sig) → Buf (Elt Ideal) ℓ)

/-! ## The operations after the grid compute `tail` -/

/-- The buffers as the operations after the grid find them: the grid's arrays at their final contents, the rest as the grid
    found them. -/
abbrev W (c : Dev nD) : Valuation τ sig (Elt Ideal) :=
  Pipeline.withArrays (cfgs 0).spec c (V0 m c) fun w => (dats m 0 c).arrAt w (cfgs 0).N

set_option maxRecDepth 8192 in
set_option maxHeartbeats 2000000 in
/-- The program's result is `tail` of the buffers the operations after the grid find. -/
theorem tail_term (c : Dev nD) :
    Pipeline.afterTail₀ cfgs (dats m) 0 (V0 m) [hostOps1] c main_v57
      = tail (W m c (Proc.devRef .tc main_v6)) (W m c (Proc.devRef .tc main_arg0)) (W m c (Proc.devRef .tc main_arg1)) := by
  unfold Pipeline.afterTail₀
  simp only [List.flatten_cons, List.flatten_nil, List.append_nil]
  after_results_simp
  rfl

/-! ## What the operations after the grid find -/

/-- Window 2's array, as the grid leaves it. -/
theorem W_main_v6 (c : Dev nD) : W m c (Proc.devRef .tc main_v6) = (dats m 0 c).arrAt 2 cfg0.N :=
  Pipeline.withArrays_arr spec0 launch0.win.arr_inj c _ _ 2
/-- The first argument, as launched. -/
theorem W_main_arg0 (c : Dev nD) : W m c (Proc.devRef .tc main_arg0) = m ((c : Thread nD τ).loc main_arg0) :=
  (Pipeline.withArrays_of_ne _ c (V0 m c) _ main_arg0 (by exact (by decide : ∀ w, Pipeline.arrRef spec0 w ≠ main_arg0))).trans
    (V_main_arg0 m c)
/-- The second argument, as launched. -/
theorem W_main_arg1 (c : Dev nD) : W m c (Proc.devRef .tc main_arg1) = m ((c : Thread nD τ).loc main_arg1) :=
  (Pipeline.withArrays_of_ne _ c (V0 m c) _ main_arg1 (by exact (by decide : ∀ w, Pipeline.arrRef spec0 w ≠ main_arg1))).trans
    (V_main_arg1 m c)

/-! ## The result -/

/-- The program's result: the sum of the two cells of window 2's final array plus the sum over the last 512 rows of minus
    the row's term, each sum from the literal zero. -/
theorem tail_apply (c : Dev nD) :
    Pipeline.afterTail₀ cfgs (dats m) 0 (V0 m) [hostOps1] c main_v57
      = fun _ => (Cert.IouLoss.zero + (∑ q : Fin 2, (dats m 0 c).arrAt 2 cfg0.N (ix3 q 0 0) : EReal))
          + (Cert.IouLoss.zero + ∑ k : Fin 512, -(Cert.IouLoss.rowTerm (m ((c : Thread nD τ).loc main_arg0))
              (m ((c : Thread nD τ).loc main_arg1)) (Cert.IouLoss.tailRow k))) := by
  rw [tail_term, tail_read, W_main_v6, W_main_arg0, W_main_arg1]
  rfl

end Cert.KernelIdeal.Tail

end
-- ==== Proof.BodyPieces.lean ====
/-
  What one grid point of the kernel leaves behind, as values.

  At every point the body reads the three planes (x, y, size) of its block of `outputs` and of `targets`, forms each
  row's `0 - log(iou + ε)`, sums the block's 1008 × 128 rows (lanes first, then sublanes) and adds that to the 1 × 1
  accumulator it carries between points: `step x0 x1 acc`.  At the first point of a core's 31 the accumulator is first
  reset to the literal zero; at the last it is also copied to the core's output cell.
-/
import proofs.«141015_j9096740733450_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Body

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Plane `p` (0: x, 1: y, 2: size) of a `[3, 1008, 128]` block, as the body loads it. -/
abbrev plane0 (x : Vec F S3x1008x128 .f32) : Vec F S1x1008x128 .f32 :=
  View.ld x (Rect.unit ![0, 0, 0] ![1, 1008, 128] inb_S3x1008x128_S1x1008x128_0_0_0)
abbrev plane1 (x : Vec F S3x1008x128 .f32) : Vec F S1x1008x128 .f32 :=
  View.ld x (Rect.unit ![1, 0, 0] ![1, 1008, 128] inb_S3x1008x128_S1x1008x128_1_0_0)
abbrev plane2 (x : Vec F S3x1008x128 .f32) : Vec F S1x1008x128 .f32 :=
  View.ld x (Rect.unit ![2, 0, 0] ![1, 1008, 128] inb_S3x1008x128_S1x1008x128_2_0_0)

/-- One point's update of the accumulator: `acc` plus the block's sum of `0 - log(iou + ε)`, of the block `x0` of
    `outputs` and `x1` of `targets` (the body's arithmetic, as the generated payloads name it). -/
def step (x0 x1 : Vec F S3x1008x128 .f32) (acc : Vec F S1x1 .f32) : Vec F S1x1 .f32 :=
  k0_pay1 (k0_pay6 (plane1 x1)) (k0_pay7 (plane2 x1)) (k0_pay8 (plane2 x0)) (k0_pay9 (plane2 x1))
    (k0_pay10 (plane0 x0) (plane2 x0) (plane0 x1) (plane2 x1))
    (k0_pay11 (plane1 x0) (plane2 x0) (plane1 x1) (plane2 x1))
    (k0_pay12 (plane1 x0) (plane2 x0)) acc

/-- A point that is neither a core's first nor its last leaves `step` of what the point before left. -/
theorem sout_B (c : Dev nD) (i : grid0.Coords) (arg2 : Memref sig .tc .vmem S3x1008x128 .f32) (harg2 : arg2.IsWhole) (arg3 : Memref sig .tc .vmem S3x1008x128 .f32) (harg3 : arg3.IsWhole) (arg4 : Memref sig .tc .vmem S1x1x1 .f32) (harg4 : arg4.IsWhole) (arg5 : Memref sig .tc .vmem S1x1 .f32) (harg5 : arg5.IsWhole) (hc0 : ¬cond0_0 i) (hc1 : ¬cond0_1 i)
    (x0 : Vec F S3x1008x128 .f32) (x1 : Vec F S3x1008x128 .f32) (xs0 : Vec F S1x1 .f32) :
    sout0_B_0 c i arg2 harg2 arg3 harg3 arg4 harg4 arg5 harg5 hc0 hc1 x0 x1 xs0 = step x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz2]
  simp only [View.readAt_eq_ld, harg2.read_unread, harg3.read_unread, harg5.read_unread, View.ld_unit_zero (S := S1x1) hz2]
  rfl

/-- A core's last point leaves the same in the accumulator, -/
theorem sout_C (c : Dev nD) (i : grid0.Coords) (arg2 : Memref sig .tc .vmem S3x1008x128 .f32) (harg2 : arg2.IsWhole) (arg3 : Memref sig .tc .vmem S3x1008x128 .f32) (harg3 : arg3.IsWhole) (arg4 : Memref sig .tc .vmem S1x1x1 .f32) (harg4 : arg4.IsWhole) (arg5 : Memref sig .tc .vmem S1x1 .f32) (harg5 : arg5.IsWhole) (hc0 : ¬cond0_0 i) (hc1 : cond0_1 i)
    (x0 : Vec F S3x1008x128 .f32) (x1 : Vec F S3x1008x128 .f32) (xs0 : Vec F S1x1 .f32) :
    sout0_C_0 c i arg2 harg2 arg3 harg3 arg4 harg4 arg5 harg5 hc0 hc1 x0 x1 xs0 = step x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread, View.ld_unit_zero (S := S1x1) hz2]
  rfl

/-- and copies it to the core's output cell. -/
theorem out_C (c : Dev nD) (i : grid0.Coords) (arg2 : Memref sig .tc .vmem S3x1008x128 .f32) (harg2 : arg2.IsWhole) (arg3 : Memref sig .tc .vmem S3x1008x128 .f32) (harg3 : arg3.IsWhole) (arg4 : Memref sig .tc .vmem S1x1x1 .f32) (harg4 : arg4.IsWhole) (arg5 : Memref sig .tc .vmem S1x1 .f32) (harg5 : arg5.IsWhole) (hc0 : ¬cond0_0 i) (hc1 : cond0_1 i)
    (x0 : Vec F S3x1008x128 .f32) (x1 : Vec F S3x1008x128 .f32) (xs0 : Vec F S1x1 .f32) :
    out0_C_2 c i arg2 harg2 arg3 harg3 arg4 harg4 arg5 harg5 hc0 hc1 x0 x1 xs0 = k0_pay2 (step x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz3, View.readCov_unit_zero (S := S1x1) _ hz2]
  simp only [View.readAt_eq_ld, harg2.read_unread, harg3.read_unread, harg5.read_unread, View.ld_unit_zero (S := S1x1) hz2]
  rfl

/-- A core's first point resets the accumulator to the literal zero first. -/
theorem sout_A (c : Dev nD) (i : grid0.Coords) (arg2 : Memref sig .tc .vmem S3x1008x128 .f32) (harg2 : arg2.IsWhole) (arg3 : Memref sig .tc .vmem S3x1008x128 .f32) (harg3 : arg3.IsWhole) (arg4 : Memref sig .tc .vmem S1x1x1 .f32) (harg4 : arg4.IsWhole) (arg5 : Memref sig .tc .vmem S1x1 .f32) (harg5 : arg5.IsWhole) (hc0 : cond0_0 i) (hc1 : ¬cond0_1 i)
    (x0 : Vec F S3x1008x128 .f32) (x1 : Vec F S3x1008x128 .f32) :
    sout0_A_0 c i arg2 harg2 arg3 harg3 arg4 harg4 arg5 harg5 hc0 hc1 x0 x1 = step x0 x1 k0_pay3 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x1) hz2, View.readCov_unit_zero (S := S1x1) _ hz2]
  simp only [View.readAt_eq_ld, harg2.read_unread, harg3.read_unread, View.ld_unit_zero (S := S1x1) hz2]
  rfl

end Cert.KernelIdeal.Body

end
-- ==== Proof.Accumulate.lean ====
/-
  The accumulator, point by point.

  The grid's 62 points run in order; core `q`'s points are `31·q … 31·q + 30`.  The 1 × 1 accumulator is reset at a
  core's first point and updated by `step` at every point; the core's output cell is written once, at its last point,
  with the accumulator's value there.
-/
import proofs.«141015_j9096740733450_2_alg».proof.Proof.BodyPieces

set_option maxRecDepth 16384

noncomputable section

open Idealize.ShloMosaic Idealize.ShloMosaic.TcCoe Idealize.SL.Sem

namespace Cert.KernelIdeal.Acc

open Cert.KernelIdeal Cert.KernelIdeal.Gen Cert.KernelIdeal.Body

variable {F : FTy → Type} [FloatOps F]
variable (m : (ℓ : Loc nD τ sig) → Buf (Elt F) ℓ)

/-- The accumulator after the point at position `n`: reset to the zero block at a core's first point, then one `step`
    per point over the point's two input blocks. -/
def accAt (c : Dev nD) : (n : ℕ) → n < cfg0.N → Vec F S1x1 .f32
  | 0, h => step (iblk m c 0 ⟨0, h⟩) (iblk m c 1 ⟨0, h⟩) k0_pay3
  | n + 1, h =>
    if (n + 1) % 31 = 0 then step (iblk m c 0 ⟨n + 1, h⟩) (iblk m c 1 ⟨n + 1, h⟩) k0_pay3
    else step (iblk m c 0 ⟨n + 1, h⟩) (iblk m c 1 ⟨n + 1, h⟩) (accAt c n (Nat.lt_of_succ_lt h))

theorem accAt_reset (c : Dev nD) (n : ℕ) (h : n < cfg0.N) (h0 : n % 31 = 0) :
    accAt m c n h = step (iblk m c 0 ⟨n, h⟩) (iblk m c 1 ⟨n, h⟩) k0_pay3 := by
  cases n with
  | zero => rfl
  | succ n => exact if_pos h0

theorem accAt_succ (c : Dev nD) (n : ℕ) (h : n + 1 < cfg0.N) (h0 : ¬(n + 1) % 31 = 0) :
    accAt m c (n + 1) h = step (iblk m c 0 ⟨n + 1, h⟩) (iblk m c 1 ⟨n + 1, h⟩) (accAt m c n (Nat.lt_of_succ_lt h)) :=
  if_neg h0

/-- What the generated frame says the accumulator holds after each point is `accAt`: by induction on the point, each
    case's found pieces read back as `step`. -/
theorem outsAt_snd (c : Dev nD) : ∀ (n : ℕ) (h : n < cfg0.N), (outsAt0 m c n h).2 = accAt m c n h
  | 0, h => by
    have hA := outsAt0_A m c ⟨0, h⟩ (Nat.zero_mod _) (by show ¬(0 : ℕ) % 31 = 30; decide)
    rw [show outsAt0 m c 0 h = outsAt0 m c (⟨0, h⟩ : Fin cfg0.N).val (⟨0, h⟩ : Fin cfg0.N).isLt from rfl, hA]
    dsimp only
    exact sout_A (F := F) ..
  | n + 1, h => by
    have hN : cfg0.N = 62 := N_0
    by_cases h0 : (n + 1) % 31 = 0
    · have h1 : ¬(n + 1) % 31 = 30 := by omega
      have hA := outsAt0_A m c ⟨n + 1, h⟩ h0 h1
      rw [show outsAt0 m c (n + 1) h = outsAt0 m c (⟨n + 1, h⟩ : Fin cfg0.N).val (⟨n + 1, h⟩ : Fin cfg0.N).isLt from rfl, hA,
        accAt_reset m c (n + 1) h h0]
      dsimp only
      exact sout_A (F := F) ..
    · by_cases h1 : (n + 1) % 31 = 30
      · have hC := outsAt0_C m c ⟨n + 1, h⟩ h0 h1
        rw [show outsAt0 m c (n + 1) h = outsAt0 m c (⟨n + 1, h⟩ : Fin cfg0.N).val (⟨n + 1, h⟩ : Fin cfg0.N).isLt from rfl, hC,
          accAt_succ m c n h h0]
        dsimp only
        refine (sout_C (F := F) ..).trans ?_
        show step _ _ (outsAt0 m c n _).2 = step _ _ (accAt m c n _)
        rw [outsAt_snd c n]
      · have hB := outsAt0_B m c ⟨n + 1, h⟩ h0 h1
        rw [show outsAt0 m c (n + 1) h = outsAt0 m c (⟨n + 1, h⟩ : Fin cfg0.N).val (⟨n + 1, h⟩ : Fin cfg0.N).isLt from rfl, hB,
          accAt_succ m c n h h0]
        dsimp only
        refine (sout_B (F := F) ..).trans ?_
        show step _ _ (outsAt0 m c n _).2 = step _ _ (accAt m c n _)
        rw [outsAt_snd c n]

/-- At a core's last point the output cell's staging buffer holds the accumulator's value there. -/
theorem outsAt_fst (c : Dev nD) (n : ℕ) (h : n < cfg0.N) (h1 : n % 31 = 30) :
    (outsAt0 m c n h).1 = k0_pay2 (accAt m c n h) := by
  have h0 : ¬n % 31 = 0 := by omega
  obtain ⟨k, rfl⟩ : ∃ k, n = k + 1 := ⟨n - 1, by omega⟩
  have hC := outsAt0_C m c ⟨k + 1, h⟩ h0 h1
  rw [show outsAt0 m c (k + 1) h = outsAt0 m c (⟨k + 1, h⟩ : Fin cfg0.N).val (⟨k + 1, h⟩ : Fin cfg0.N).isLt from rfl, hC,
    accAt_succ m c k h h0]
  dsimp only
  refine (out_C (F := F) ..).trans ?_
  show k0_pay2 (step _ _ (outsAt0 m c k _).2) = k0_pay2 (step _ _ (accAt m c k _))
  rw [outsAt_snd m c k]

end Cert.KernelIdeal.Acc

end
-- ==== Proof.OutArray.lean ====
/-
  What the kernel's `[2, 1, 1]` result array holds after the grid has run.

  Core `q`'s 31 points are `31·q … 31·q + 30`; its output cell `(q, 0, 0)` is written back once, at the core's last
  point `31·q + 30`, with the accumulator's value there.  So after the last point cell `(q, 0, 0)` of the array holds
  the accumulator after point `31·q + 30`: the two one-cell blocks written back cover the array.
-/
import proofs.«141015_j9096740733450_2_alg».proof.Proof.Accumulate
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.OutArr

open Cert.KernelIdeal Cert.KernelIdeal.Gen Cert.KernelIdeal.Acc Idealize.ShloMosaic.ValueIdx

variable {F : FTy → Type} [FloatOps F]
variable (m : (ℓ : Loc nD τ sig) → Buf (Elt F) ℓ)

/-- The accumulator depends on the point's position only, not on the proof that the position is in the grid. -/
theorem accAt_congr (c : Dev nD) {n n' : ℕ} (e : n = n') (h : n < cfg0.N) (h' : n' < cfg0.N) :
    accAt m c n h = accAt m c n' h' := by
  subst e; rfl

/-- Core `q`'s last point is a point of the grid. -/
theorem last_lt {q : ℕ} (hq : q < 2) : 31 * q + 30 < cfg0.N := by
  rw [show cfg0.N = 62 from N_0]; omega

/-- A `[1, 1, 1]` block has one index. -/
theorem idx_unit (j : S1x1x1.Idx) : j = ix3 0 0 0 := by
  funext a
  apply Fin.ext
  match a with
  | ⟨0, h0⟩ => have h : (j ⟨0, h0⟩).val < 1 := (j ⟨0, h0⟩).isLt; show (j ⟨0, h0⟩).val = 0; omega
  | ⟨1, h1⟩ => have h : (j ⟨1, h1⟩).val < 1 := (j ⟨1, h1⟩).isLt; show (j ⟨1, h1⟩).val = 0; omega
  | ⟨2, h2⟩ => have h : (j ⟨2, h2⟩).val < 1 := (j ⟨2, h2⟩).isLt; show (j ⟨2, h2⟩).val = 0; omega

/-- The array after the run, as one function of the index: cell `(q, ·, ·)` is the one cell of the payload of the
    accumulator after core `q`'s last point. -/
def G (c : Dev nD) : Buf (Elt F) ((c : Thread nD τ).loc main_v6) :=
  fun i : S2x1x1.Idx => k0_pay2 (accAt m c (31 * (i 0).val + 30) (last_lt (i 0).isLt)) (ix3 0 0 0)

/-- The output window's block index at point `t` is `(t / 31, 0, 0)`: decided once over the 62 points. -/
theorem idx_facts : ∀ t : Fin cfg0.N, win0_2.index t (0 : Fin 3) = t.val / 31 ∧ win0_2.index t (1 : Fin 3) = 0
    ∧ win0_2.index t (2 : Fin 3) = 0 :=
  (by decide +kernel : ∀ t : Fin grid0.N, _)

/-- What a writing-back point `t` writes back is block `t` of `G`. -/
theorem flushed_eq (c : Dev nD) (t : Fin cfg0.N) (hf : (cfg0.win 2).flush t = true) :
    (dats m 0 c).flushed 2 t = ((cfg0.win 2).blk t).view.read (Elt F) (G m c) := by
  have h30 : t.val % 31 = 30 := (flush0_2 t).mp hf
  show (cfg0.win 2).cut (grid0.coords t) ((dats m 0 c).after 2 t) = _
  rw [after0_2, outsAt_fst m c t.val t.isLt h30]
  obtain ⟨e0, e1, e2⟩ := idx_facts t
  funext y
  rw [View.read_apply]
  have hx : (cfg0.win 2).xinj (grid0.coords t) y = ix3 0 0 0 := idx_unit _
  have hpos : t.val = 31 * ((((cfg0.win 2).blk t).view.emb y) (0 : Fin 3)).val + 30 := by
    have hy : (y (0 : Fin 3)).val < 1 := (y (0 : Fin 3)).isLt
    show t.val = 31 * (win0_2.index t (0 : Fin 3) * 1 + 1 * (y (0 : Fin 3)).val) + 30
    rw [e0]; omega
  show k0_pay2 (accAt m c t.val t.isLt) ((cfg0.win 2).xinj (grid0.coords t) y)
    = k0_pay2 (accAt m c (31 * ((((cfg0.win 2).blk t).view.emb y) (0 : Fin 3)).val + 30) _) (ix3 0 0 0)
  rw [hx, accAt_congr m c hpos t.isLt]

/-- The two blocks written back cover the array — cell `(q, 0, 0)` is the block of core `q`'s last point — so after the
    last point the array is `G`. -/
theorem final_arr (c : Dev nD) : (dats m 0 c).arrAt 2 cfg0.N = G m c :=
  (dats m 0 c).arrAt_eq_of_cover 2 (G m c) (flushed_eq m c) fun i => by
    have hq : (i (0 : Fin 3)).val < 2 := (i (0 : Fin 3)).isLt
    have h1 : (i (1 : Fin 3)).val < 1 := (i (1 : Fin 3)).isLt
    have h2 : (i (2 : Fin 3)).val < 1 := (i (2 : Fin 3)).isLt
    obtain ⟨t, htv⟩ : ∃ t : Fin cfg0.N, t.val = 31 * (i (0 : Fin 3)).val + 30 := ⟨⟨_, last_lt hq⟩, rfl⟩
    obtain ⟨e0, e1, e2⟩ := idx_facts t
    refine ⟨t, (flush0_2 t).mpr (by omega), ?_⟩
    show i ∈ ((View.whole main_v6).slice (win0_2.rect t)).set
    rw [View.set_slice_whole, Rect.mem_set_unit]
    intro a
    match a with
    | ⟨0, _⟩ =>
      show win0_2.index t (0 : Fin 3) * 1 ≤ (i (0 : Fin 3)).val
        ∧ (i (0 : Fin 3)).val < win0_2.index t (0 : Fin 3) * 1 + 1
      rw [e0]; omega
    | ⟨1, _⟩ =>
      show win0_2.index t (1 : Fin 3) * 1 ≤ (i (1 : Fin 3)).val
        ∧ (i (1 : Fin 3)).val < win0_2.index t (1 : Fin 3) * 1 + 1
      rw [e1]; omega
    | ⟨2, _⟩ =>
      show win0_2.index t (2 : Fin 3) * 1 ≤ (i (2 : Fin 3)).val
        ∧ (i (2 : Fin 3)).val < win0_2.index t (2 : Fin 3) * 1 + 1
      rw [e2]; omega

/-- Cell `(q, 0, 0)` of the result array after the run: the accumulator after core `q`'s last point, through the
    payload's reshape to `[1, 1, 1]`. -/
theorem arr2_apply (c : Dev nD) (q : Fin 2) :
    (dats m 0 c).arrAt 2 cfg0.N (ix3 q 0 0)
      = k0_pay2 (accAt m c (31 * q.val + 30) (by rw [show cfg0.N = 62 from N_0]; omega)) (ix3 0 0 0) :=
  (congrFun (final_arr m c) (ix3 q 0 0)).trans rfl

end Cert.KernelIdeal.OutArr

end
-- ==== Proof.BlockSum.lean ====
/-
  One grid point's update of the accumulator, read at its one entry: the accumulator's entry plus the double sum, over the
  block's 1008 sublanes and 128 lanes, of `0 - term` of the six coordinates the two blocks hold at that sublane and lane.
-/
import proofs.«141015_j9096740733450_2_alg».proof.Proof.BodyPieces
import proofs.«141015_j9096740733450_2_alg».proof.Proof.LossTerm
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.KernelIdeal.BlockSum

open Cert.KernelIdeal Cert.KernelIdeal.Gen Cert.KernelIdeal.Body

/-! ### Layout: the keepdims column and the inserted coordinate of a one-axis sum -/

/-- An `[a]` vector cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    rw [Shape.rowMajor_val_one, Shape.rowMajor_val_two]
    show i.val = i.val * 1 + u.val
    omega)

/-- Summing an `[a, b]` array over its second axis: the index over `i` with `l` inserted is `(i, l)`. -/
theorem lift_axis1 {a b : ℕ} (h : (⟨2, ![a, b]⟩ : Shape).Reduces [1] ⟨1, ![a]⟩) (i : Fin a) (l : Fin b) :
    h.lift (ix1 i) l = ix2 i l :=
  funext fun c => Fin.ext (by match c with | ⟨0, _⟩ => rfl | ⟨1, _⟩ => rfl)

/-- Summing an `[a, b]` array over its first axis: the index over `j` with `k` inserted is `(k, j)`. -/
theorem lift_axis0 {a b : ℕ} (h : (⟨2, ![a, b]⟩ : Shape).Reduces [0] ⟨1, ![b]⟩) (j : Fin b) (k : Fin a) :
    h.lift (ix1 j) k = ix2 k j :=
  funext fun c => Fin.ext (by match c with | ⟨0, _⟩ => rfl | ⟨1, _⟩ => rfl)

/-! ### The three planes of a block at an index -/

theorem plane0_apply (x : Vec Ideal S3x1008x128 .f32) (r : Fin 1008) (l : Fin 128) :
    plane0 x (ix3 0 r l) = x (ix3 0 r l) := by
  show x _ = x _
  congr 1
  funext c
  apply Fin.ext
  match c with
  | ⟨0, _⟩ => rfl
  | ⟨1, _⟩ => show 0 + 1 * r.val = r.val; omega
  | ⟨2, _⟩ => show 0 + 1 * l.val = l.val; omega

theorem plane1_apply (x : Vec Ideal S3x1008x128 .f32) (r : Fin 1008) (l : Fin 128) :
    plane1 x (ix3 0 r l) = x (ix3 1 r l) := by
  show x _ = x _
  congr 1
  funext c
  apply Fin.ext
  match c with
  | ⟨0, _⟩ => rfl
  | ⟨1, _⟩ => show 0 + 1 * r.val = r.val; omega
  | ⟨2, _⟩ => show 0 + 1 * l.val = l.val; omega

theorem plane2_apply (x : Vec Ideal S3x1008x128 .f32) (r : Fin 1008) (l : Fin 128) :
    plane2 x (ix3 0 r l) = x (ix3 2 r l) := by
  show x _ = x _
  congr 1
  funext c
  apply Fin.ext
  match c with
  | ⟨0, _⟩ => rfl
  | ⟨1, _⟩ => show 0 + 1 * r.val = r.val; omega
  | ⟨2, _⟩ => show 0 + 1 * l.val = l.val; omega

/-! ### The payloads that only drop the block's leading unit axis -/

theorem pay4_apply (v : Vec Ideal S1x1008x128 .f32) (r : Fin 1008) (l : Fin 128) :
    k0_pay4 v (ix2 r l) = v (ix3 0 r l) := shapeCast_1ab_ab_apply v _ r l

theorem pay5_apply (v : Vec Ideal S1x1008x128 .f32) (r : Fin 1008) (l : Fin 128) :
    k0_pay5 v (ix2 r l) = v (ix3 0 r l) := shapeCast_1ab_ab_apply v _ r l

theorem pay6_apply (v : Vec Ideal S1x1008x128 .f32) (r : Fin 1008) (l : Fin 128) :
    k0_pay6 v (ix2 r l) = v (ix3 0 r l) := shapeCast_1ab_ab_apply v _ r l

theorem pay7_apply (v : Vec Ideal S1x1008x128 .f32) (r : Fin 1008) (l : Fin 128) :
    k0_pay7 v (ix2 r l) = v (ix3 0 r l) := shapeCast_1ab_ab_apply v _ r l

/-! ### The elementwise payloads -/

/-- `(2·s)·(2·s)` of the first box's size plane. -/
theorem pay8_apply (v : Vec Ideal S1x1008x128 .f32) (r : Fin 1008) (l : Fin 128) :
    k0_pay8 v (ix2 r l) = IouLoss.two * v (ix3 0 r l) * (IouLoss.two * v (ix3 0 r l)) := by
  show IouLoss.two * k0_pay5 v (ix2 r l) * (IouLoss.two * k0_pay5 v (ix2 r l)) = _
  rw [pay5_apply]

/-- `(2·s)·(2·s)` of the second box's size plane. -/
theorem pay9_apply (v : Vec Ideal S1x1008x128 .f32) (r : Fin 1008) (l : Fin 128) :
    k0_pay9 v (ix2 r l) = IouLoss.two * v (ix3 0 r l) * (IouLoss.two * v (ix3 0 r l)) := by
  show IouLoss.two * k0_pay7 v (ix2 r l) * (IouLoss.two * k0_pay7 v (ix2 r l)) = _
  rw [pay7_apply]

/-- The clamped overlap width in `x`. -/
theorem pay10_apply (v3 v7 v9 v13 : Vec Ideal S1x1008x128 .f32) (r : Fin 1008) (l : Fin 128) :
    k0_pay10 v3 v7 v9 v13 (ix2 r l)
      = max (min (v3 (ix3 0 r l) + v7 (ix3 0 r l)) (v9 (ix3 0 r l) + v13 (ix3 0 r l))
          - max (v3 (ix3 0 r l) - v7 (ix3 0 r l)) (v9 (ix3 0 r l) - v13 (ix3 0 r l))) IouLoss.zero := by
  show max (min (k0_pay4 v3 (ix2 r l) + k0_pay5 v7 (ix2 r l)) (k0_pay4 v9 (ix2 r l) + k0_pay7 v13 (ix2 r l))
          - max (k0_pay4 v3 (ix2 r l) - k0_pay5 v7 (ix2 r l)) (k0_pay4 v9 (ix2 r l) - k0_pay7 v13 (ix2 r l))) IouLoss.zero = _
  rw [pay4_apply, pay4_apply, pay5_apply, pay7_apply]

/-- The upper end of the overlap in `y`. -/
theorem pay11_apply (v5 v7 v11 v13 : Vec Ideal S1x1008x128 .f32) (r : Fin 1008) (l : Fin 128) :
    k0_pay11 v5 v7 v11 v13 (ix2 r l)
      = min (v5 (ix3 0 r l) + v7 (ix3 0 r l)) (v11 (ix3 0 r l) + v13 (ix3 0 r l)) := by
  show min (k0_pay4 v5 (ix2 r l) + k0_pay5 v7 (ix2 r l)) (k0_pay6 v11 (ix2 r l) + k0_pay7 v13 (ix2 r l)) = _
  rw [pay4_apply, pay5_apply, pay6_apply, pay7_apply]

/-- The first box's lower end in `y`. -/
theorem pay12_apply (v5 v7 : Vec Ideal S1x1008x128 .f32) (r : Fin 1008) (l : Fin 128) :
    k0_pay12 v5 v7 (ix2 r l) = v5 (ix3 0 r l) - v7 (ix3 0 r l) := by
  show k0_pay4 v5 (ix2 r l) - k0_pay5 v7 (ix2 r l) = _
  rw [pay4_apply, pay5_apply]

/-! ### The block's sum -/

/-- One row's summand from the seven elementwise payloads: `0 - log (w·h / (a + b - w·h + ε) + ε)` with
    `h = max (u - max d (c - s)) 0`. -/
def cell (v12 v14 v17 v20 v29 v32 v33 : FVec Ideal S1008x128 .f32) (i : S1008x128.Idx) : EReal :=
  IouLoss.zero - Ideal.log
    (Ideal.div (v29 i * max (v32 i - max (v33 i) (v12 i - v14 i)) IouLoss.zero)
        (v17 i + v20 i - v29 i * max (v32 i - max (v33 i) (v12 i - v14 i)) IouLoss.zero + IouLoss.eps)
      + IouLoss.eps)

/-- The accumulating payload at its one entry: the accumulator's entry plus the sum over sublanes of the sums over
    lanes of the summands. -/
theorem pay1_apply (v12 v14 v17 v20 v29 v32 v33 : FVec Ideal S1008x128 .f32) (v54 : Vec Ideal S1x1 .f32) :
    k0_pay1 v12 v14 v17 v20 v29 v32 v33 v54 (ix2 0 0)
      = v54 (ix2 0 0) + ∑ r : Fin 1008, ∑ l : Fin 128, cell v12 v14 v17 v20 v29 v32 v33 (ix2 r l) := by
  unfold k0_pay1
  dsimp only
  refine (congrFun (shapeCast_self _ _) _).trans ?_
  show v54 (ix2 0 0) + _ = v54 (ix2 0 0) + _
  congr 1
  refine (shapeCast_a_1a_apply _ _ 0 0).trans ?_
  refine (Ideal.multiReduction_add_single _ _ _ _ _ _).trans ?_
  refine Finset.sum_congr rfl fun (r : Fin 1008) _ => ?_
  refine (congrArg _ (lift_axis0 (a := 1008) (b := 1) reduces_S1008x1_S1 0 r)).trans ?_
  refine (shapeCast_a_a1_apply _ _ r 0).trans ?_
  refine (Ideal.multiReduction_add_single _ _ _ _ _ _).trans ?_
  refine Finset.sum_congr rfl fun (l : Fin 128) _ => ?_
  refine (congrArg _ (lift_axis1 (a := 1008) (b := 128) reduces_S1008x128_S1008 r l)).trans ?_
  rfl

/-- One point's update of the accumulator, at its one entry: the accumulator's entry plus the double sum over the block's
    sublanes and lanes of `0 - term` of the six coordinates held there. -/
theorem step_apply (x0 x1 : Vec Ideal S3x1008x128 .f32) (acc : Vec Ideal S1x1 .f32) :
    Body.step x0 x1 acc (ix2 0 0)
      = acc (ix2 0 0) + ∑ r : Fin 1008, ∑ l : Fin 128,
          (IouLoss.zero - IouLoss.term (x0 (ix3 0 r l)) (x0 (ix3 1 r l)) (x0 (ix3 2 r l))
            (x1 (ix3 0 r l)) (x1 (ix3 1 r l)) (x1 (ix3 2 r l))) := by
  unfold Body.step
  refine (pay1_apply _ _ _ _ _ _ _ _).trans ?_
  congr 1
  refine Finset.sum_congr rfl fun r _ => Finset.sum_congr rfl fun l _ => ?_
  unfold cell
  rw [pay6_apply, pay7_apply, pay8_apply, pay9_apply, pay10_apply, pay11_apply, pay12_apply]
  rw [plane0_apply x0 r l, plane0_apply x1 r l, plane1_apply x0 r l, plane1_apply x1 r l, plane2_apply x0 r l,
    plane2_apply x1 r l]
  rfl

/-- The reset payload is the literal zero. -/
theorem pay3_apply : (k0_pay3 (F := Ideal)) (ix2 0 0) = IouLoss.zero := by
  unfold k0_pay3
  refine (congrFun (shapeCast_self _ _) _).trans ?_
  rfl

/-- The output payload only adds a leading unit axis. -/
theorem pay2_apply (v : Vec Ideal S1x1 .f32) : k0_pay2 v (ix3 0 0 0) = v (ix2 0 0) :=
  shapeCast_ab_1ab_apply v _ 0 0 0

end Cert.KernelIdeal.BlockSum

end
-- ==== Proof.InputBlocks.lean ====
/-
  What the kernel's two input windows read.

  Before the grid runs, each `[8000000, 3]` argument is cut to its first 7,999,488 rows, transposed to `[3, 7999488]` and
  reshaped to `[3, 62496, 128]`: entry `(p, M, l)` of the result is column `p` of row `128·M + l` of the argument (the reshape
  keeps the row-major position, `7999488·p + (128·M + l) = (62496·p + M)·128 + l`).  A window's block at grid point `t` is
  whole on the first and last axes and is rows `1008·t … 1008·t + 1007` of the middle one, so its entry `(p, r, l)` is column
  `p` of row `(1008·t + r)·128 + l` of the argument.
-/
import proofs.«141015_j9096740733450_2_alg».proof.Proof.Gen.KernelIdeal.Frame
import proofs.«141015_j9096740733450_2_alg».proof.Proof.LossTerm
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Inputs

open Cert.KernelIdeal Cert.KernelIdeal.Gen Idealize.ShloMosaic Idealize.ShloMosaic.TcCoe Idealize.SL.Sem
  Idealize.ShloMosaic.ValueIdx

/-! ## The host's preparation of an argument, read at an index -/

/-- Cut to the first 7,999,488 rows, transposed and reshaped to `[3, 62496, 128]`, an array reads at `(p, M, l)` its own
    entry at row `128·M + l`, column `p`. -/
theorem prep_apply {α : Type} (x : S8000000x3.Idx → α) (p : Fin 3) (M : Fin 62496) (l : Fin 128)
    (h : M.val * 128 + l.val < 8000000) :
    shapeCast S3x62496x128 (transpose S3x7999488 [1, 0]
        (extractStridedSlice S7999488x3 ![0, 0] x slices_S8000000x3_S7999488x3_0_0)
        transposes_S7999488x3_S3x7999488_1_0) shapeCasts_S3x7999488_S3x62496x128 (ix3 p M l)
      = x (ix2 ⟨M.val * 128 + l.val, h⟩ p) := by
  have h' : M.val * 128 + l.val < 7999488 := by have := M.isLt; have := l.isLt; omega
  refine (shapeCast_apply _ shapeCasts_S3x7999488_S3x62496x128 (ix3 p M l) (ix2 p ⟨M.val * 128 + l.val, h'⟩) ?_).trans ?_
  · rw [Shape.rowMajor_val_two, Shape.rowMajor_val_three]
    show p.val * 7999488 + (M.val * 128 + l.val) = (p.val * 62496 + M.val) * 128 + l.val
    omega
  refine (transpose_apply [1, 0] _ transposes_S7999488x3_S3x7999488_1_0 (ix2 p ⟨M.val * 128 + l.val, h'⟩)
    (ix2 ⟨M.val * 128 + l.val, h'⟩ p) ?_).trans ?_
  · intro b; match b with | ⟨0, _⟩ => rfl | ⟨1, _⟩ => rfl
  exact extractStridedSlice_apply ![0, 0] x slices_S8000000x3_S7999488x3_0_0 (ix2 ⟨M.val * 128 + l.val, h'⟩ p)
    (ix2 ⟨M.val * 128 + l.val, h⟩ p) (fun a => match a with
      | ⟨0, _⟩ => by show M.val * 128 + l.val = 0 + (M.val * 128 + l.val); omega
      | ⟨1, _⟩ => by show p.val = 0 + p.val; omega)

variable {F : FTy → Type} [FloatOps F]
variable (m : (ℓ : Loc nD τ sig) → Buf (Elt F) ℓ)

/-! ## The two arrays the windows stage, as the grid finds them -/

/-- Window 0's array is the first argument's preparation. -/
theorem V_main_v3 (c : Dev nD) :
    (V m c main_v3 : (⟨S3x62496x128, .f32⟩ : BufTy).Contents (Elt F))
      = shapeCast S3x62496x128 (transpose S3x7999488 [1, 0]
          (extractStridedSlice S7999488x3 ![0, 0] (m ((c : Thread nD τ).loc main_arg0)) slices_S8000000x3_S7999488x3_0_0)
          transposes_S7999488x3_S3x7999488_1_0) shapeCasts_S3x7999488_S3x62496x128 := by
  show StableHlo.after hostOps0 (fun b => m (c, b)) (Proc.devRef .tc main_v3) = _
  after_results
  rfl

/-- Window 1's array is the second argument's preparation. -/
theorem V_main_v5 (c : Dev nD) :
    (V m c main_v5 : (⟨S3x62496x128, .f32⟩ : BufTy).Contents (Elt F))
      = shapeCast S3x62496x128 (transpose S3x7999488 [1, 0]
          (extractStridedSlice S7999488x3 ![0, 0] (m ((c : Thread nD τ).loc main_arg1)) slices_S8000000x3_S7999488x3_0_0)
          transposes_S7999488x3_S3x7999488_1_0) shapeCasts_S3x7999488_S3x62496x128 := by
  show StableHlo.after hostOps0 (fun b => m (c, b)) (Proc.devRef .tc main_v5) = _
  after_results
  rfl

/-! ## Which block a grid point reads -/

/-- Window 0's block at point `t` is block `(0, t, 0)` — decided over the 62 points. -/
theorem index0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)
/-- Window 1's block at point `t` is block `(0, t, 0)` — decided over the 62 points. -/
theorem index1 : ∀ t : Fin cfg0.N, win0_1.index t 0 = 0 ∧ win0_1.index t 1 = t.val ∧ win0_1.index t 2 = 0 :=
  (by decide +kernel : ∀ t : Fin grid0.N, win0_1.index t 0 = 0 ∧ win0_1.index t 1 = t.val ∧ win0_1.index t 2 = 0)

/-- The argument row under entry `(·, r, l)` of the block at point `t`. -/
def blkRow (t : Fin cfg0.N) (r : Fin 1008) (l : Fin 128) : Fin 8000000 :=
  ⟨(t.val * 1008 + r.val) * 128 + l.val, by
    have hN : t.val < 62 := lt_of_lt_of_eq t.isLt (show cfg0.N = 62 from N_0)
    have := r.isLt; have := l.isLt; omega⟩

/-! ## The blocks -/

/-- Window 0's block at point `t` reads, at `(p, r, l)`, the first argument at row `(1008·t + r)·128 + l`, column `p`. -/
theorem iblk0_apply (c : Dev nD) (t : Fin cfg0.N) (p : Fin 3) (r : Fin 1008) (l : Fin 128) :
    (iblk m c 0 t : (⟨S3x1008x128, .f32⟩ : BufTy).Contents (Elt F)) (ix3 p r l)
      = m ((c : Thread nD τ).loc main_arg0) (ix2 (blkRow t r l) p) := by
  have hN : t.val < 62 := lt_of_lt_of_eq t.isLt (show cfg0.N = 62 from N_0)
  obtain ⟨h0, h1, h2⟩ := index0 t
  have hM : t.val * 1008 + r.val < 62496 := by have := r.isLt; omega
  unfold iblk
  rw [View.read_apply]
  show V m c main_v3 (((cfg0.win 0).blk t).view.emb (ix3 p r l)) = _
  have e : ((cfg0.win 0).blk t).view.emb (ix3 p r l) = (ix3 p ⟨t.val * 1008 + r.val, hM⟩ l : S3x62496x128.Idx) := by
    funext a
    apply Fin.ext
    match a with
    | ⟨0, _⟩ => show win0_0.index t 0 * 3 + 1 * p.val = p.val; rw [h0]; omega
    | ⟨1, _⟩ => show win0_0.index t 1 * 1008 + 1 * r.val = t.val * 1008 + r.val; rw [h1]; omega
    | ⟨2, _⟩ => show win0_0.index t 2 * 128 + 1 * l.val = l.val; rw [h2]; omega
  rw [e]
  refine (congrFun (V_main_v3 m c) _).trans ?_
  exact prep_apply _ p ⟨t.val * 1008 + r.val, hM⟩ l (blkRow t r l).isLt

/-- Window 1's block at point `t` reads, at `(p, r, l)`, the second argument at row `(1008·t + r)·128 + l`, column `p`. -/
theorem iblk1_apply (c : Dev nD) (t : Fin cfg0.N) (p : Fin 3) (r : Fin 1008) (l : Fin 128) :
    (iblk m c 1 t : (⟨S3x1008x128, .f32⟩ : BufTy).Contents (Elt F)) (ix3 p r l)
      = m ((c : Thread nD τ).loc main_arg1) (ix2 (blkRow t r l) p) := by
  have hN : t.val < 62 := lt_of_lt_of_eq t.isLt (show cfg0.N = 62 from N_0)
  obtain ⟨h0, h1, h2⟩ := index1 t
  have hM : t.val * 1008 + r.val < 62496 := by have := r.isLt; omega
  unfold iblk
  rw [View.read_apply]
  show V m c main_v5 (((cfg0.win 1).blk t).view.emb (ix3 p r l)) = _
  have e : ((cfg0.win 1).blk t).view.emb (ix3 p r l) = (ix3 p ⟨t.val * 1008 + r.val, hM⟩ l : S3x62496x128.Idx) := by
    funext a
    apply Fin.ext
    match a with
    | ⟨0, _⟩ => show win0_1.index t 0 * 3 + 1 * p.val = p.val; rw [h0]; omega
    | ⟨1, _⟩ => show win0_1.index t 1 * 1008 + 1 * r.val = t.val * 1008 + r.val; rw [h1]; omega
    | ⟨2, _⟩ => show win0_1.index t 2 * 128 + 1 * l.val = l.val; rw [h2]; omega
  rw [e]
  refine (congrFun (V_main_v5 m c) _).trans ?_
  exact prep_apply _ p ⟨t.val * 1008 + r.val, hM⟩ l (blkRow t r l).isLt

/-! ## The blocks as functions of the block index -/

/-- Window 0's block at point `t`, as a function of the `[3, 1008, 128]` index. -/
theorem iblk0_eq (c : Dev nD) (t : Fin cfg0.N) :
    (iblk m c 0 t : (⟨S3x1008x128, .f32⟩ : BufTy).Contents (Elt F))
      = fun y => m ((c : Thread nD τ).loc main_arg0) (ix2 (blkRow t (y 1) (y 2)) (y 0)) := by
  funext y
  obtain ⟨p, r, l, rfl⟩ : ∃ p r l, y = ix3 p r l := ⟨y 0, y 1, y 2, eq_ix3 y⟩
  exact iblk0_apply m c t p r l

/-- Window 1's block at point `t`, as a function of the `[3, 1008, 128]` index. -/
theorem iblk1_eq (c : Dev nD) (t : Fin cfg0.N) :
    (iblk m c 1 t : (⟨S3x1008x128, .f32⟩ : BufTy).Contents (Elt F))
      = fun y => m ((c : Thread nD τ).loc main_arg1) (ix2 (blkRow t (y 1) (y 2)) (y 0)) := by
  funext y
  obtain ⟨p, r, l, rfl⟩ : ∃ p r l, y = ix3 p r l := ⟨y 0, y 1, y 2, eq_ix3 y⟩
  exact iblk1_apply m c t p r l

end Cert.KernelIdeal.Inputs

end
-- ==== Proof.LossReal.lean ====
/-
  Every row's term is a real number when the six coordinates are real, and that is why negation may be moved
  inside the sum of the terms.

  Over the extended reals `-(a + b) = -a + -b` can fail (at `⊤ + ⊥`), so the step "minus the sum is the sum of
  the minuses" needs every summand to be real.  With real coordinates each `+`, `-`, `*`, `min`, `max` stays
  real; the one division has a denominator `union + ε ≥ ε > 0`, so it is an ordinary real division; and the
  logarithm's argument is `≥ ε > 0`, so the logarithm is the real logarithm.
-/
import proofs.«141015_j9096740733450_2_alg».proof.Proof.LossTerm

noncomputable section

namespace Cert.IouLoss

open Idealize.ShloMosaic

/-! ### The three literals -/

/-- The pattern of `+0.0` denotes `0`. -/
theorem zero_eq : zero = 0 := by
  simp [Ideal.ofBits, Ideal.ieee]

/-- The pattern of `2.0` denotes the real `2`. -/
theorem two_eq : two = ((2 : ℝ) : EReal) := by
  simp [Ideal.ofBits, Ideal.ieee, -EReal.coe_mul]; norm_num

/-- The pattern `0x33D6BF95` (the f32 nearest `1e-7`) denotes `14073749 / 2^47`. -/
theorem eps_eq : eps = ((14073749 / 2 ^ 47 : ℝ) : EReal) := by
  simp [Ideal.ofBits, Ideal.ieee, -EReal.coe_mul]; norm_num

/-- `ε` is a positive real. -/
theorem eps_pos : ∃ e : ℝ, 0 < e ∧ eps = (e : EReal) :=
  ⟨14073749 / 2 ^ 47, by norm_num, eps_eq⟩

/-- Adding to the literal zero changes nothing. -/
theorem zero_add_eq (x : EReal) : zero + x = x := by
  rw [zero_eq, zero_add]

/-- Subtracting from the literal zero negates. -/
theorem zero_sub_eq (x : EReal) : zero - x = -x := by
  rw [zero_eq, zero_sub]

/-! ### `min` and `max` of real numbers stay real -/

theorem coe_min_real (a b : ℝ) : min (a : EReal) (b : EReal) = ((min a b : ℝ) : EReal) :=
  (EReal.coe_strictMono.monotone.map_min).symm

theorem coe_max_real (a b : ℝ) : max (a : EReal) (b : EReal) = ((max a b : ℝ) : EReal) :=
  (EReal.coe_strictMono.monotone.map_max).symm

/-! ### The real-number facts -/

/-- The clamped overlap width of two intervals `[c - s, c + s]`, `[d - t, d + t]`, over the reals. -/
def widthR (c s d t : ℝ) : ℝ := max (min (c + s) (d + t) - max (c - s) (d - t)) 0

theorem widthR_nonneg (c s d t : ℝ) : 0 ≤ widthR c s d t := le_max_right _ _

/-- The overlap is no wider than the first interval: `min a b - max c d ≤ a - c = 2·s`. -/
theorem widthR_le_abs (c s d t : ℝ) : widthR c s d t ≤ |2 * s| := by
  unfold widthR
  refine max_le ?_ (abs_nonneg _)
  have h1 : min (c + s) (d + t) ≤ c + s := min_le_left _ _
  have h2 : c - s ≤ max (c - s) (d - t) := le_max_left _ _
  have h3 : 2 * s ≤ |2 * s| := le_abs_self _
  linarith

/-- The overlap area over the reals. -/
def overlapR (ox oy os tx ty ts : ℝ) : ℝ := widthR ox os tx ts * widthR oy os ty ts

theorem overlapR_nonneg (ox oy os tx ty ts : ℝ) : 0 ≤ overlapR ox oy os tx ty ts :=
  mul_nonneg (widthR_nonneg _ _ _ _) (widthR_nonneg _ _ _ _)

/-- The overlap is no larger than the first box: `w · h ≤ |2·os| · |2·os| = (2·os)²`. -/
theorem overlapR_le (ox oy os tx ty ts : ℝ) : overlapR ox oy os tx ty ts ≤ 2 * os * (2 * os) := by
  have h := mul_le_mul (widthR_le_abs ox os tx ts) (widthR_le_abs oy os ty ts)
    (widthR_nonneg _ _ _ _) (abs_nonneg _)
  rwa [abs_mul_abs_self] at h

/-- The regularised union is positive: `(2·os)² + (2·ts)² - w·h + e ≥ (2·ts)² + e > 0`. -/
theorem denomR_pos (ox oy os tx ty ts e : ℝ) (he : 0 < e) :
    0 < 2 * os * (2 * os) + 2 * ts * (2 * ts) - overlapR ox oy os tx ty ts + e := by
  have h1 := overlapR_le ox oy os tx ty ts
  have h2 : 0 ≤ 2 * ts * (2 * ts) := mul_self_nonneg _
  linarith

/-! ### The extended-real expressions at real coordinates -/

/-- At real coordinates the overlap is the real overlap. -/
theorem overlap_coe (ox oy os tx ty ts : ℝ) :
    overlap (ox : EReal) oy os tx ty ts = ((overlapR ox oy os tx ty ts : ℝ) : EReal) := by
  unfold overlap overlapR widthR
  rw [zero_eq, ← EReal.coe_zero]
  simp only [← EReal.coe_add, ← EReal.coe_sub, coe_min_real, coe_max_real, ← EReal.coe_mul]

/-- At real coordinates the logarithm's argument is a positive real. -/
theorem logArg_coe (ox oy os tx ty ts : ℝ) :
    ∃ r : ℝ, 0 < r ∧ logArg (ox : EReal) oy os tx ty ts = (r : EReal) := by
  obtain ⟨e, he, hE⟩ := eps_pos
  have hD := denomR_pos ox oy os tx ty ts e he
  refine ⟨overlapR ox oy os tx ty ts
      * (1 / (2 * os * (2 * os) + 2 * ts * (2 * ts) - overlapR ox oy os tx ty ts + e)) + e, ?_, ?_⟩
  · have := mul_nonneg (overlapR_nonneg ox oy os tx ty ts) (one_div_pos.mpr hD).le
    linarith
  · unfold logArg
    rw [overlap_coe, two_eq, hE]
    simp only [← EReal.coe_mul, ← EReal.coe_add, ← EReal.coe_sub]
    rw [Ideal.div_coe (ne_of_gt hD)]
    simp only [← EReal.coe_mul, ← EReal.coe_add]

/-- At real coordinates a row's term is a real number: the real logarithm of a positive real. -/
theorem term_real (ox oy os tx ty ts : ℝ) :
    ∃ r : ℝ, term (ox : EReal) oy os tx ty ts = (r : EReal) := by
  obtain ⟨a, ha, hA⟩ := logArg_coe ox oy os tx ty ts
  refine ⟨Real.log a, ?_⟩
  unfold term
  rw [hA, Ideal.log_coe, if_neg (not_le.mpr ha)]

/-! ### Negation and sums of real numbers -/

/-- A finite sum of real numbers, taken in the extended reals, is the real sum. -/
theorem coe_sum_real {ι : Type*} (s : Finset ι) (g : ι → ℝ) :
    ∑ i ∈ s, (g i : EReal) = ((∑ i ∈ s, g i : ℝ) : EReal) := by
  classical
  induction s using Finset.induction_on with
  | empty => simp
  | insert a s ha ih => rw [Finset.sum_insert ha, Finset.sum_insert ha, ih, EReal.coe_add]

/-- Negation distributes over a finite sum whose summands are all real. -/
theorem neg_sum_of_real {ι : Type*} (s : Finset ι) (f : ι → EReal)
    (hf : ∀ i ∈ s, ∃ r : ℝ, f i = (r : EReal)) : -(∑ i ∈ s, f i) = ∑ i ∈ s, -(f i) := by
  classical
  have h : ∀ i, ∃ r : ℝ, i ∈ s → f i = (r : EReal) := fun i => by
    by_cases hi : i ∈ s
    · obtain ⟨r, hr⟩ := hf i hi
      exact ⟨r, fun _ => hr⟩
    · exact ⟨0, fun hi' => absurd hi' hi⟩
  choose g hg using h
  rw [Finset.sum_congr rfl (fun i hi => hg i hi),
    Finset.sum_congr rfl (fun i hi => by rw [hg i hi, ← EReal.coe_neg] :
      ∀ i ∈ s, -(f i) = ((-(g i) : ℝ) : EReal)),
    coe_sum_real, coe_sum_real, ← EReal.coe_neg, Finset.sum_neg_distrib]

end Cert.IouLoss

end
-- ==== Proof.AccSum.lean ====
/-
  The accumulator in closed form.

  Core `q`'s accumulator is reset at position `31·q` and updated once per point, so after position `31·q + j` its one
  entry is the sum of the block sums of positions `31·q … 31·q + j`; the block at position `31·q + j'` holds rows
  `mainRow q j' r l`.  After the core's last point, `j = 30`, the entry is the sum of `-term` over all the core's rows.
-/
import proofs.«141015_j9096740733450_2_alg».proof.Proof.Accumulate
import proofs.«141015_j9096740733450_2_alg».proof.Proof.BlockSum
import proofs.«141015_j9096740733450_2_alg».proof.Proof.InputBlocks
import proofs.«141015_j9096740733450_2_alg».proof.Proof.LossReal

noncomputable section

open Idealize.ShloMosaic Idealize.ShloMosaic.TcCoe Idealize.SL.Sem Idealize.ShloMosaic.ValueIdx

namespace Cert.KernelIdeal.AccSum

open Cert.KernelIdeal Cert.KernelIdeal.Gen Cert.KernelIdeal.Body Cert.KernelIdeal.Acc Cert.KernelIdeal.Inputs
  Cert.KernelIdeal.BlockSum

variable (m : (ℓ : Loc nD τ sig) → Buf (Elt Ideal) ℓ)

/-- The sum, over the block read at position `n`, of minus each row's term (zero past the grid's last position). -/
def blockSum (c : Dev nD) (n : ℕ) : EReal :=
  if h : n < cfg0.N then
    ∑ r : Fin 1008, ∑ l : Fin 128,
      -(IouLoss.rowTerm (m ((c : Thread nD τ).loc main_arg0)) (m ((c : Thread nD τ).loc main_arg1)) (blkRow ⟨n, h⟩ r l))
  else 0

/-- One point's update adds the point's block sum to the accumulator's entry. -/
theorem step_blk (c : Dev nD) (n : ℕ) (h : n < cfg0.N) (acc : Vec Ideal S1x1 .f32) :
    step (iblk m c 0 ⟨n, h⟩) (iblk m c 1 ⟨n, h⟩) acc (ix2 0 0) = acc (ix2 0 0) + blockSum m c n := by
  refine (step_apply (iblk m c 0 ⟨n, h⟩) (iblk m c 1 ⟨n, h⟩) acc).trans ?_
  unfold blockSum
  rw [dif_pos h]
  congr 1
  refine Finset.sum_congr rfl fun r _ => Finset.sum_congr rfl fun l _ => ?_
  rw [IouLoss.zero_sub_eq]
  refine congrArg Neg.neg ?_
  unfold IouLoss.rowTerm
  rw [iblk0_apply m c ⟨n, h⟩ 0 r l, iblk0_apply m c ⟨n, h⟩ 1 r l, iblk0_apply m c ⟨n, h⟩ 2 r l,
    iblk1_apply m c ⟨n, h⟩ 0 r l, iblk1_apply m c ⟨n, h⟩ 1 r l, iblk1_apply m c ⟨n, h⟩ 2 r l]

/-- The accumulator at equal positions is the same. -/
theorem accAt_congr (c : Dev nD) {n n' : ℕ} (e : n = n') (h : n < cfg0.N) (h' : n' < cfg0.N) :
    accAt m c n h = accAt m c n' h' := by
  subst e; rfl

/-- After position `31·q + j` (`j ≤ 30`) the accumulator's entry is the sum of the block sums since the reset at `31·q`. -/
theorem acc_prefix (c : Dev nD) (q : ℕ) (j : ℕ) (hj : j ≤ 30) (h : 31 * q + j < cfg0.N) :
    accAt m c (31 * q + j) h (ix2 0 0) = ∑ j' ∈ Finset.range (j + 1), blockSum m c (31 * q + j') := by
  induction j with
  | zero =>
    rw [accAt_reset m c (31 * q + 0) h (by omega)]
    refine (step_blk m c _ h _).trans ?_
    rw [pay3_apply, IouLoss.zero_add_eq, Finset.sum_range_one]
  | succ j ih =>
    have h' : 31 * q + j < cfg0.N := by omega
    have h'' : 31 * q + j + 1 < cfg0.N := by omega
    rw [accAt_congr m c (show 31 * q + (j + 1) = 31 * q + j + 1 by omega) h h'',
      accAt_succ m c (31 * q + j) h'' (by omega)]
    refine (step_blk m c _ h'' _).trans ?_
    rw [ih (by omega) h', Finset.sum_range_succ _ (j + 1)]
    rfl

/-- After core `q`'s last point the accumulator's entry is the sum of minus the term of every row of the core's 31 blocks. -/
theorem acc_last (c : Dev nD) (q : Fin 2) (h : 31 * q.val + 30 < cfg0.N) :
    accAt m c (31 * q.val + 30) h (ix2 0 0)
      = ∑ j : Fin 31, ∑ r : Fin 1008, ∑ l : Fin 128,
          -(IouLoss.rowTerm (m ((c : Thread nD τ).loc main_arg0)) (m ((c : Thread nD τ).loc main_arg1))
              (IouLoss.mainRow q j r l)) := by
  rw [acc_prefix m c q.val 30 le_rfl h]
  show ∑ j' ∈ Finset.range 31, blockSum m c (31 * q.val + j') = _
  rw [Finset.sum_range]
  refine Finset.sum_congr rfl fun j _ => ?_
  have hj : 31 * q.val + j.val < cfg0.N := by have := j.isLt; omega
  unfold blockSum
  rw [dif_pos hj]
  refine Finset.sum_congr rfl fun r _ => Finset.sum_congr rfl fun l _ => ?_
  congr 2
  apply Fin.ext
  show ((31 * q.val + j.val) * 1008 + r.val) * 128 + l.val = ((q.val * 31 + j.val) * 1008 + r.val) * 128 + l.val
  omega

end Cert.KernelIdeal.AccSum

end
-- ==== Proof.LossSums.lean ====
/-
  Re-indexing the sum over the 8,000,000 rows.

  The rows `0 … 7,999,487` are enumerated in order by the mixed-radix index `((c·31 + j)·1008 + r)·128 + l` with
  `c < 2`, `j < 31`, `r < 1008`, `l < 128` (since `2·31·1008·128 = 7,999,488`), and the remaining 512 rows are
  `7,999,488 + k`, `k < 512`.  So a sum over all rows is the four-fold sum over the main rows plus the sum over the tail.

  Nothing here enumerates a finite type: every step is a change of variables along an equivalence, or the splitting of
  `Fin (m + n)` into its first `m` and last `n` elements.
-/
import Mathlib.Algebra.BigOperators.Fin
import Mathlib.Logic.Equiv.Fin.Basic
import proofs.«141015_j9096740733450_2_alg».proof.Proof.LossTerm

noncomputable section

namespace Cert.IouLoss

open Idealize.ShloMosaic

/-- Element `j` of block `i`, of `m` consecutive blocks of length `n`, is below `m · n`. -/
theorem block_index_lt {m n : ℕ} (i : Fin m) (j : Fin n) : i.val * n + j.val < m * n := by
  have h1 : i.val * n + j.val < (i.val + 1) * n := by
    rw [Nat.add_mul, Nat.one_mul]
    exact Nat.add_lt_add_left j.isLt _
  exact lt_of_lt_of_le h1 (Nat.mul_le_mul_right n i.isLt)

/-- A sum over `Fin (m · n)` is the sum over `m` consecutive blocks of `n`: the index `i · n + j` runs through
    `0 … m·n - 1` once, in order, as `(i, j)` runs through `Fin m × Fin n` lexicographically. -/
theorem sum_fin_mul_blocks {M : Type*} [AddCommMonoid M] (m n : ℕ) (g : Fin (m * n) → M) :
    ∑ i : Fin m, ∑ j : Fin n, g ⟨i.val * n + j.val, block_index_lt i j⟩ = ∑ k : Fin (m * n), g k := by
  rw [← Equiv.sum_comp finProdFinEquiv g, Fintype.sum_prod_type]
  refine Finset.sum_congr rfl fun i _ => Finset.sum_congr rfl fun j _ => ?_
  congr 1
  apply Fin.ext
  rw [finProdFinEquiv_apply_val]
  show i.val * n + j.val = j.val + n * i.val
  rw [Nat.mul_comm, Nat.add_comm]

/-- The sum over all 8,000,000 rows, split as the kernel splits it: the 2 × 31 grid of blocks of 1008 × 128 rows, and
    the 512 rows of the tail. -/
theorem sum_rows_split {M : Type*} [AddCommMonoid M] (f : Fin 8000000 → M) :
    (∑ c : Fin 2, ∑ j : Fin 31, ∑ r : Fin 1008, ∑ l : Fin 128, f (mainRow c j r l)) + ∑ k : Fin 512, f (tailRow k)
      = ∑ n : Fin 8000000, f n := by
  have e : 2 * 31 * 1008 * 128 + 512 = 8000000 := by norm_num
  have hmain : (∑ c : Fin 2, ∑ j : Fin 31, ∑ r : Fin 1008, ∑ l : Fin 128, f (mainRow c j r l))
      = ∑ i : Fin (2 * 31 * 1008 * 128), f (finCongr e (Fin.castAdd 512 i)) := by
    rw [← sum_fin_mul_blocks (2 * 31 * 1008) 128, ← sum_fin_mul_blocks (2 * 31) 1008, ← sum_fin_mul_blocks 2 31]
    exact Finset.sum_congr rfl fun c _ => Finset.sum_congr rfl fun j _ => Finset.sum_congr rfl fun r _ =>
      Finset.sum_congr rfl fun l _ => congrArg f (Fin.ext rfl)
  have htail : (∑ k : Fin 512, f (tailRow k))
      = ∑ k : Fin 512, f (finCongr e (Fin.natAdd (2 * 31 * 1008 * 128) k)) :=
    Finset.sum_congr rfl fun k _ => congrArg f (Fin.ext rfl)
  rw [← Equiv.sum_comp (finCongr e) f, Fin.sum_univ_add, hmain, htail]

end Cert.IouLoss

end
-- ==== Proof.Bridge.lean ====
/-
  The two arrangements of the sum are one number.

  The kernel adds up `-(term n)` row by row — the first 7,999,488 rows in 62 blocks of 1008 × 128, two cores of 31 blocks
  each, then the last 512 rows — while the reference negates the sum of `term n` over all 8,000,000 rows.  Addition of
  extended reals is commutative and associative, so the kernel's grouping is the plain sum of `-(term n)`; negation passes
  through the sum because every term is a real number, which is where the finiteness of the inputs is used.
-/
import proofs.«141015_j9096740733450_2_alg».proof.Proof.LossReal
import proofs.«141015_j9096740733450_2_alg».proof.Proof.LossSums

noncomputable section

namespace Cert.IouLoss

open Idealize.ShloMosaic Idealize.ShloMosaic.ValueIdx

/-- A row's term is a real number when both arrays hold real numbers. -/
theorem rowTerm_real (o t : (⟨2, ![8000000, 3]⟩ : Shape).Idx → EReal)
    (ho : ∀ i, ∃ r : ℝ, o i = (r : EReal)) (ht : ∀ i, ∃ r : ℝ, t i = (r : EReal)) (n : Fin 8000000) :
    ∃ r : ℝ, rowTerm o t n = (r : EReal) := by
  obtain ⟨a0, h0⟩ := ho (ix2 n 0)
  obtain ⟨a1, h1⟩ := ho (ix2 n 1)
  obtain ⟨a2, h2⟩ := ho (ix2 n 2)
  obtain ⟨b0, g0⟩ := ht (ix2 n 0)
  obtain ⟨b1, g1⟩ := ht (ix2 n 1)
  obtain ⟨b2, g2⟩ := ht (ix2 n 2)
  unfold rowTerm
  rw [h0, h1, h2, g0, g1, g2]
  exact term_real a0 a1 a2 b0 b1 b2

/-- The kernel's grouping of the sum of `-(term n)` (each partial sum started at the literal zero) is the reference's
    `-(0 + ∑ₙ term n)`, for arrays of real numbers. -/
theorem grouped_eq_loss (o t : (⟨2, ![8000000, 3]⟩ : Shape).Idx → EReal)
    (ho : ∀ i, ∃ r : ℝ, o i = (r : EReal)) (ht : ∀ i, ∃ r : ℝ, t i = (r : EReal)) :
    (zero + ∑ q : Fin 2, ∑ j : Fin 31, ∑ r : Fin 1008, ∑ l : Fin 128, -(rowTerm o t (mainRow q j r l)))
        + (zero + ∑ k : Fin 512, -(rowTerm o t (tailRow k)))
      = loss o t := by
  rw [zero_add_eq, zero_add_eq, sum_rows_split (fun n => -(rowTerm o t n))]
  unfold loss
  rw [zero_add_eq]
  exact (neg_sum_of_real Finset.univ _ (fun n _ => rowTerm_real o t ho ht n)).symm

end Cert.IouLoss

end
-- ==== Proof.KernelRun.lean ====
/-
  The kernel's run, read as a value.

  After the region the two cells of the pallas_call's result hold the two cores' accumulated sums; the host adds them, adds the
  sum over the last 512 rows, and that grouped sum of `-(term n)` is the loss when the inputs are real numbers.
-/
import proofs.«141015_j9096740733450_2_alg».proof.Proof.HostTail
import proofs.«141015_j9096740733450_2_alg».proof.Proof.OutArray
import proofs.«141015_j9096740733450_2_alg».proof.Proof.AccSum
import proofs.«141015_j9096740733450_2_alg».proof.Proof.Bridge

noncomputable section

open Idealize.ShloMosaic Idealize.ShloMosaic.TcCoe Idealize.SL.Sem Idealize.ShloMosaic.ValueIdx

namespace Cert.KernelIdeal.Run

open Cert.KernelIdeal Cert.KernelIdeal.Gen Cert.IouLoss

variable (m : (ℓ : Loc nD τ sig) → Buf (Elt Ideal) ℓ) (ρ : Dev nD → PrngReg)

/-- The program's result after the host tail: the two cores' sums over their 31 blocks, plus the sum over the last 512
    rows, each started at the literal zero. -/
theorem result_grouped (c : Dev nD) :
    Pipeline.afterTail₀ cfgs (dats m) 0 (V0 m) [hostOps1] c main_v57
      = fun _ => (zero + ∑ q : Fin 2, ∑ j : Fin 31, ∑ r : Fin 1008, ∑ l : Fin 128,
            -(rowTerm (m ((c : Thread nD τ).loc main_arg0)) (m ((c : Thread nD τ).loc main_arg1)) (mainRow q j r l)))
          + (zero + ∑ k : Fin 512, -(rowTerm (m ((c : Thread nD τ).loc main_arg0)) (m ((c : Thread nD τ).loc main_arg1)) (tailRow k))) := by
  have cell : ∀ q : Fin 2, ((dats m 0 c).arrAt 2 cfg0.N (ix3 q 0 0) : EReal)
      = ∑ j : Fin 31, ∑ r : Fin 1008, ∑ l : Fin 128,
          -(rowTerm (m ((c : Thread nD τ).loc main_arg0)) (m ((c : Thread nD τ).loc main_arg1)) (mainRow q j r l)) := fun q => by
    have hq : 31 * q.val + 30 < cfg0.N := by rw [show cfg0.N = 62 from N_0]; omega
    rw [Cert.KernelIdeal.OutArr.arr2_apply m c q, Cert.KernelIdeal.BlockSum.pay2_apply]
    exact Cert.KernelIdeal.AccSum.acc_last m c q hq
  rw [Cert.KernelIdeal.Tail.tail_apply m c]
  simp only [cell]

/-- Every weakly fair execution of the kernel program terminates with its result at the loss of its two argument arrays, and
    the arguments unchanged — for argument arrays of real numbers. -/
theorem run (hfin : ∀ c : Dev nD, (∀ i, ∃ r : ℝ, m ((c : Thread nD τ).loc main_arg0) i = (r : EReal))
      ∧ (∀ i, ∃ r : ℝ, m ((c : Thread nD τ).loc main_arg1) i = (r : EReal))) :
    θ_run defs (onTc (τ := τ) (main (F := Ideal))) ⟨m, fun _ => 0, ρ⟩ (fun r => ∀ c : Dev nD,
      r.2.mem ((c.tc : Thread nD τ).loc main_v57)
          = (fun _ => loss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v57 (Pipeline.mem_restRefs_of main_v57 (by decide) (by decide))).trans
        ((result_grouped m c).trans (funext fun _ => grouped_eq_loss _ _ (hfin c).1 (hfin c).2)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Run

end
-- ==== Proof.lean ====
/-
  An IoU loss over 8,000,000 pairs of boxes: a Pallas reduction kernel against its jnp reference, equal over the extended
  reals for finite inputs.

  Row `n` of `outputs` and of `targets` is a box `(x, y, s)`.  With `w`, `h` the clamped overlap widths of the two
  boxes, `term n = log (w·h / ((2·os)² + (2·ts)² - w·h + ε) + ε)`.  The reference returns `-(0 + ∑ₙ term n)` over all rows.
  The kernel transposes the first 7,999,488 rows to `[3, 62496, 128]`, walks 62 blocks of `[3, 1008, 128]` on a `2 × 31`
  grid — each point adds its block's sum of `0 - term` (lanes, then sublanes) to a 1 × 1 accumulator that is reset at a
  core's first point and copied to the core's output cell at its last — then the host adds the two cells and the sum of
  `-(term n)` over the last 512 rows.

  The same three literals (2.0, the f32 nearest 1e-7, +0.0) stand in the same places on both sides.  Regrouping the sum
  is free over the extended reals (addition is commutative and associative there); moving the negation across the sum is
  not (`-(⊤ + ⊥) ≠ -⊤ + -⊥`), and holds here because every `term n` is a real number: for real coordinates
  `0 ≤ w·h ≤ (2·os)²`, so the denominator is at least `ε > 0`, the quotient is a non-negative real and the logarithm's
  argument a positive real.  That is the one place the precondition (every input finite) is used.

  The modules: LossTerm (the specification), LossReal (the literals, every term real, negation through a sum of reals),
  LossSums (the re-indexing of the 8,000,000 rows), FiniteInputs (the precondition read as "every entry is a real"),
  Bridge (grouped sum = loss); RefLoss (the reference's run is the loss); BodyPieces, BlockSum, Accumulate, AccSum (what
  a grid point leaves, as values, and the accumulator's closed form), InputBlocks (a block of the transposed array is
  rows of the argument), OutArray (the result cells after the region), HostTail (the host operations after the region),
  KernelRun (the kernel program's run ends at the loss).  The three frames and the runs themselves are the generated
  modules'.
-/
import proofs.«141015_j9096740733450_2_alg».proof.Defs
import proofs.«141015_j9096740733450_2_alg».proof.Proof.Gen.Kernel
import proofs.«141015_j9096740733450_2_alg».proof.Proof.Gen.Kernel.Skeleton
import proofs.«141015_j9096740733450_2_alg».proof.Proof.Gen.Kernel.Launch
import proofs.«141015_j9096740733450_2_alg».proof.Proof.Gen.Kernel.Points
import proofs.«141015_j9096740733450_2_alg».proof.Proof.Gen.Kernel.Frame
import proofs.«141015_j9096740733450_2_alg».proof.Proof.Gen.KernelIdeal
import proofs.«141015_j9096740733450_2_alg».proof.Proof.Gen.KernelIdeal.Skeleton
import proofs.«141015_j9096740733450_2_alg».proof.Proof.Gen.KernelIdeal.Launch
import proofs.«141015_j9096740733450_2_alg».proof.Proof.Gen.KernelIdeal.Points
import proofs.«141015_j9096740733450_2_alg».proof.Proof.Gen.KernelIdeal.Frame
import proofs.«141015_j9096740733450_2_alg».proof.Proof.Gen.ReferenceIdeal
import proofs.«141015_j9096740733450_2_alg».proof.Proof.Gen.ReferenceIdeal.Run
import proofs.«141015_j9096740733450_2_alg».proof.Proof.Gen.ReferenceIdeal.Read
import proofs.«141015_j9096740733450_2_alg».proof.Proof.Gen.Pre_finite_inputs
import proofs.«141015_j9096740733450_2_alg».proof.Proof.RefLoss
import proofs.«141015_j9096740733450_2_alg».proof.Proof.FiniteInputs
import proofs.«141015_j9096740733450_2_alg».proof.Proof.KernelRun
import Idealize.ShloMosaic.Adequacy
import Idealize.ShloMosaic.Init

noncomputable section

namespace Cert.Proof

open Idealize.ShloMosaic Idealize.SL.Sem

/-- The word-level kernel program runs and keeps its arguments: the generated frame. -/
theorem frame_kernel : Cert.frame_Kernel :=
  fun m ρ _ => Cert.Kernel.Gen.frame m ρ

/-- So does its idealization. -/
theorem frame_kernelIdeal : Cert.frame_KernelIdeal :=
  fun m ρ _ => Cert.KernelIdeal.Gen.frame m ρ

/-- The reference's frame is its run with the result dropped. -/
theorem frame_reference : Cert.frame_ReferenceIdeal :=
  fun m ρ _ => (θ_run Cert.ReferenceIdeal.defs _ _).mono (fun _ h c => (h c).2)
    (Cert.ReferenceIdeal.RefValue.run_loss m ρ)

/-- From memories agreeing on the two arrays, both idealized programs end at the loss of those arrays: the kernel's grouped
    sum of `-(term n)` and the reference's `-(0 + ∑ₙ term n)` are one extended real when every input is finite. -/
theorem algebraic : Cert.algebraic_KernelIdeal_ReferenceIdeal := by
  intro m ρ m' ρ' hpre hagree
  have hfin : ∀ c : Dev Cert.KernelIdeal.nD,
      (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal)) :=
    fun c => Cert.IouLoss.finite_of_pre _ _ (hpre c)
  refine ⟨fun c _ => Cert.IouLoss.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Run.run m ρ hfin, ?_⟩
  refine (θ_run Cert.ReferenceIdeal.defs _ _).mono (fun _ h c => ⟨(h c).1.trans ?_, (h c).2⟩)
    (Cert.ReferenceIdeal.RefValue.run_loss m' ρ')
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
